-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000x1 : Shape := ⟨2, ![100000, 1]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S100000x1 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x1 .f32 := Host.absf main_arg2
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000x1 : Shape := ⟨2, ![100000, 1]⟩
abbrev S64x64 : Shape := ⟨2, ![64, 64]⟩
abbrev S64 : Shape := ⟨1, ![64]⟩
abbrev S5000x64 : Shape := ⟨2, ![5000, 64]⟩
abbrev S1x64 : Shape := ⟨2, ![1, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S5000x1 : Shape := ⟨2, ![5000, 1]⟩

abbrev nBuf : Space → Nat
  | .hbm => 47
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000x1, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S100000x64, .f32⟩
  | .hbm, ⟨16, _⟩ => ⟨S100000x64, .f32⟩
  | .hbm, ⟨17, _⟩ => ⟨S100000x64, .f32⟩
  | .hbm, ⟨18, _⟩ => ⟨S100000x64, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S_, .f32⟩
  | .hbm, ⟨37, _⟩ => ⟨S1600000, .f32⟩
  | .hbm, ⟨38, _⟩ => ⟨S_, .f32⟩
  | .hbm, ⟨39, _⟩ => ⟨S100000, .f32⟩
  | .hbm, ⟨40, _⟩ => ⟨S1600000x1, .i32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x1, .f32⟩
  | .local _ .vmem, ⟨27, _⟩ => ⟨S5000x1, .f32⟩
  | .local _ .vmem, ⟨28, _⟩ => ⟨S5000x64, .f32⟩
  | .local _ .vmem, ⟨29, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5000x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  broadcasts_S5000x1_S5000x64 : S5000x1.Broadcasts S5000x64
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S100000x64.size a
  hwx0_9 : ∀ i : grid0.Coords, EltTy.bits .f32 = 32 ∨ (Rect.block (s := S100000x64) S5000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S100000x64.size a
  hwx0_10 : ∀ i : grid0.Coords, EltTy.bits .f32 = 32 ∨ (Rect.block (s := S100000x64) S5000x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S100000x64.size a
  hwx0_11 : ∀ i : grid0.Coords, EltTy.bits .f32 = 32 ∨ (Rect.block (s := S100000x64) S5000x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x64.size a ≤ S100000x64.size a
  hwx0_12 : ∀ i : grid0.Coords, EltTy.bits .f32 = 32 ∨ (Rect.block (s := S100000x64) S5000x64.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S5000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S5000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_2) S5000x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_3) S5000x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v4_2) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_3) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_1) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000x1 : Shape := ⟨2, ![100000, 1]⟩
abbrev S64x64 : Shape := ⟨2, ![64, 64]⟩
abbrev S64 : Shape := ⟨1, ![64]⟩
abbrev S1x64 : Shape := ⟨2, ![1, 64]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩

abbrev nBuf : Space → Nat
  | .hbm => 73
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000x1, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S64x64, .f32⟩
  | .hbm, ⟨20, _⟩ => ⟨S100000x64, .f32⟩
  | .hbm, ⟨21, _⟩ => ⟨S1x64, .f32⟩
  | .hbm, ⟨22, _⟩ => ⟨S100000x64, .f32⟩
  | .hbm, ⟨23, _⟩ => ⟨S100000x64, .f32⟩
  | .hbm, ⟨24, _⟩ => ⟨S_, .f32⟩
  | .hbm, ⟨25, _⟩ => ⟨S100000x64, .f32⟩
  | .hbm, ⟨26, _⟩ => ⟨S100000x64, .f32⟩
  | .hbm, ⟨27, _⟩ => ⟨S64x64, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S64x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S1x1600000, .i32⟩
  | .hbm, ⟨38, _⟩ => ⟨S1600000, .i32⟩
  | .hbm, ⟨39, _⟩ => ⟨S1x1600000, .i32⟩
  | .hbm, ⟨40, _⟩ => ⟨S1600000, .i32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call1_cst : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_c_0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_1 : Ref sig .tc := ⟨.hbm, 50, rfl⟩
abbrev main_v33 : Ref sig .tc := ⟨.hbm, 51, rfl⟩
abbrev main_v34 : Ref sig .tc := ⟨.hbm, 52, rfl⟩
abbrev main_c_2 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_3 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000x1_S100000x64_0_1 : S100000x1.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibSegmentSum.lean ====
/-
  A general lemma file: the host's row gather and accumulating row scatter read at an index, and the law that joins a
  segment sum of `h[row] + u` with `count · h + segment sum of u`.

  Shapes: node table `[N, D]`, index column `[E, 1]` (one signed 32-bit row number per edge), edge table `[E, D]`,
  and for the per-node count a vector `[N]` fed by a vector `[E]`.

  * `rowGather_apply` — gathering rows of the node table by the index column: edge `e`, feature `c` reads the table
    at row `min (toNat (signed index)) (N - 1)` (a negative index reads row `0`), feature `c`.
  * `rowScatterAdd_apply` — the accumulating scatter of edge rows into the node table: node `n`, feature `c` ends at
    its old value plus the sum, over the edges whose SIGNED index is exactly `n`, of the edge's value at `c`; an
    edge whose index is negative or `≥ N` lands nowhere.
  * `vecScatterAdd_apply` — the same for a vector of per-edge numbers into a vector of per-node numbers.
  * `natCast_mul_eq_nsmul` — on the extended reals a natural number times `a` is `a` added that many times
    (also at `±∞`, where the general distributive law fails).
  * `segmentSum_self_add` — THE LAW. If the gather's index column agrees with the scatter's wherever the latter is
    non-negative, then scattering `h[gatherIdx e] + u e` is `(number of edges landing on n) · h n + scatter of u`,
    the count being the scatter of ones.
-/
import Idealize.ShloMosaic.PureOps.Ideal
import Idealize.ShloMosaic.Lib.ValueIdx

noncomputable section

open scoped BigOperators

namespace Cert.Lib.SegmentSum

open Idealize.ShloMosaic Idealize.ShloMosaic.ValueIdx

/-! ## The dimension numbers -/

/-- Row gather `[N, D]` by `[E, 1]` into `[E, D]`: axis 0 indexed and collapsed, axis 1 taken whole. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Row scatter of `[E, D]` into `[N, D]` by `[E, 1]`: axis 0 indexed, axis 1 the update's window. -/
abbrev rowScatterDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Scatter of a vector `[E]` into a vector `[N]` by `[E, 1]`: no window. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The index column's entry for edge `e`. -/
abbrev col {E : Nat} (e : Fin E) : (⟨2, ![E, 1]⟩ : Shape).Idx := ix2 e (0 : Fin 1)

/-! ## The row scatter: where an update lands -/

/-- An axis is kept exactly when it is not among the dropped ones. -/
theorem mem_kept {s : Shape} (axes : List (Fin s.rank)) (a : Fin s.rank) : a ∈ s.kept axes ↔ a ∉ axes := by
  simp [Shape.kept, List.mem_filter, List.mem_finRange]

theorem one_not_mem_zero : ¬ (1 : Fin 2) ∈ ([0] : List (Fin 2)) :=
  fun h => absurd (List.mem_singleton.1 h) (by decide)

section RowScatter
variable {N E D w : Nat} (wf : ScatterDims.WF ⟨2, ![N, D]⟩ ⟨2, ![E, 1]⟩ ⟨2, ![E, D]⟩ [1] [0] [0] 1)
  (idx : IVec ⟨2, ![E, 1]⟩ w)

theorem rowScatter_start0 (e : Fin E) (c : Fin D) :
    (rowScatterDims N E D wf).start (ix2 e c) idx 0 = (idx (col e)).toInt := by
  unfold ScatterDims.start
  rw [dif_pos (show (0 : Fin 2) ∈ (rowScatterDims N E D wf).scatterDimsToOperandDims from List.mem_singleton.mpr rfl)]
  have hsi : (rowScatterDims N E D wf).siIdx (ix2 e c) ⟨List.idxOf (0 : Fin 2) (rowScatterDims N E D wf).scatterDimsToOperandDims,
      List.idxOf_lt_length_iff.2 (List.mem_singleton.mpr rfl)⟩ = col e := by
    funext b; refine Fin.ext ?_
    match b with
    | ⟨0, _⟩ => rfl
    | ⟨1, _⟩ => rfl
  rw [hsi]

theorem rowScatter_start1 (e : Fin E) (c : Fin D) : (rowScatterDims N E D wf).start (ix2 e c) idx 1 = 0 := by
  unfold ScatterDims.start
  rw [dif_neg (show ¬ (1 : Fin 2) ∈ (rowScatterDims N E D wf).scatterDimsToOperandDims from one_not_mem_zero)]

theorem rowScatter_window0 (e : Fin E) (c : Fin D) : (rowScatterDims N E D wf).window (ix2 e c) 0 = 0 := by
  unfold ScatterDims.window
  rw [dif_neg (show ¬ (0 : Fin 2) ∈ (rowScatterDims N E D wf).sKept from
    fun h => (mem_kept _ _).1 h (List.mem_singleton.mpr rfl))]

theorem rowScatter_window1 (e : Fin E) (c : Fin D) : (rowScatterDims N E D wf).window (ix2 e c) 1 = c.val := by
  unfold ScatterDims.window
  rw [dif_pos (show (1 : Fin 2) ∈ (rowScatterDims N E D wf).sKept from (mem_kept _ _).2 one_not_mem_zero)]
  rfl

/-- Edge `e`'s value at feature `c` lands on node `n`, feature `c'` exactly when `e`'s signed index is `n` and
    `c = c'`. -/
theorem rowScatter_resultIdx?_eq_some (e : Fin E) (c : Fin D) (n : Fin N) (c' : Fin D) :
    (rowScatterDims N E D wf).resultIdx? (ix2 e c) idx = some (ix2 n c') ↔ (idx (col e)).toInt = (n.val : Int) ∧ c = c' := by
  unfold ScatterDims.resultIdx?
  split
  · rename_i h
    rw [Option.some.injEq]
    constructor
    · intro hf
      have h0 : ((rowScatterDims N E D wf).start (ix2 e c) idx 0 + ((rowScatterDims N E D wf).window (ix2 e c) 0 : Int)).toNat = n.val :=
        congrArg (fun f : (⟨2, ![N, D]⟩ : Shape).Idx => (f 0).val) hf
      have h1 : ((rowScatterDims N E D wf).start (ix2 e c) idx 1 + ((rowScatterDims N E D wf).window (ix2 e c) 1 : Int)).toNat = c'.val :=
        congrArg (fun f : (⟨2, ![N, D]⟩ : Shape).Idx => (f 1).val) hf
      have hh := (h 0).1
      rw [rowScatter_start0, rowScatter_window0] at h0 hh
      rw [rowScatter_start1, rowScatter_window1] at h1
      refine ⟨by omega, Fin.ext (by omega)⟩
    · rintro ⟨h0, rfl⟩
      funext a; refine Fin.ext ?_
      match a with
      | ⟨0, _⟩ =>
        show ((rowScatterDims N E D wf).start (ix2 e c) idx 0 + ((rowScatterDims N E D wf).window (ix2 e c) 0 : Int)).toNat = n.val
        rw [rowScatter_start0, rowScatter_window0]; omega
      | ⟨1, _⟩ =>
        show ((rowScatterDims N E D wf).start (ix2 e c) idx 1 + ((rowScatterDims N E D wf).window (ix2 e c) 1 : Int)).toNat = c.val
        rw [rowScatter_start1, rowScatter_window1]; omega
  · rename_i h
    constructor
    · intro hf; exact absurd hf (by simp)
    · rintro ⟨h0, rfl⟩
      exfalso; apply h
      intro a
      match a with
      | ⟨0, _⟩ =>
        show 0 ≤ (rowScatterDims N E D wf).start (ix2 e c) idx 0 + ((rowScatterDims N E D wf).window (ix2 e c) 0 : Int)
          ∧ (rowScatterDims N E D wf).start (ix2 e c) idx 0 + ((rowScatterDims N E D wf).window (ix2 e c) 0 : Int) < (N : Int)
        rw [rowScatter_start0, rowScatter_window0]; have := n.isLt; omega
      | ⟨1, _⟩ =>
        show 0 ≤ (rowScatterDims N E D wf).start (ix2 e c) idx 1 + ((rowScatterDims N E D wf).window (ix2 e c) 1 : Int)
          ∧ (rowScatterDims N E D wf).start (ix2 e c) idx 1 + ((rowScatterDims N E D wf).window (ix2 e c) 1 : Int) < (D : Int)
        rw [rowScatter_start1, rowScatter_window1]; have := c.isLt; omega

end RowScatter

/-! ## The accumulating row scatter read at a node and a feature -/

section RowScatterAdd
variable {N E D w : Nat} (wf : ScatterDims.WF ⟨2, ![N, D]⟩ ⟨2, ![E, 1]⟩ ⟨2, ![E, D]⟩ [1] [0] [0] 1)
  (idx : IVec ⟨2, ![E, 1]⟩ w)

/-- Node `n`, feature `c` after the accumulating scatter: the old value plus the sum over the edges whose signed
    index is `n` of the edge's value at `c`. -/
theorem rowScatterAdd_apply (x : (⟨2, ![N, D]⟩ : Shape).Idx → EReal) (upd : (⟨2, ![E, D]⟩ : Shape).Idx → EReal)
    (n : Fin N) (c : Fin D) :
    Ideal.hostScatterAdd (rowScatterDims N E D wf) x idx upd (ix2 n c)
      = x (ix2 n c) + ∑ e ∈ Finset.univ.filter (fun e : Fin E => (idx (col e)).toInt = (n.val : Int)), upd (ix2 e c) := by
  unfold Ideal.hostScatterAdd
  congr 1
  refine Finset.sum_bij' (fun j _ => (j 0 : Fin E)) (fun e _ => ix2 e c) ?_ ?_ ?_ ?_ ?_
  · intro j hj
    obtain ⟨e, c', rfl⟩ : ∃ (e : Fin E) (c' : Fin D), j = ix2 e c' := ⟨j 0, j 1, eq_ix2 j⟩
    exact Finset.mem_filter.2 ⟨Finset.mem_univ _,
      ((rowScatter_resultIdx?_eq_some wf idx e c' n c).1 (Finset.mem_filter.1 hj).2).1⟩
  · intro e he
    exact Finset.mem_filter.2 ⟨Finset.mem_univ _,
      (rowScatter_resultIdx?_eq_some wf idx e c n c).2 ⟨(Finset.mem_filter.1 he).2, rfl⟩⟩
  · intro j hj
    obtain ⟨e, c', rfl⟩ : ∃ (e : Fin E) (c' : Fin D), j = ix2 e c' := ⟨j 0, j 1, eq_ix2 j⟩
    have hc : c' = c := ((rowScatter_resultIdx?_eq_some wf idx e c' n c).1 (Finset.mem_filter.1 hj).2).2
    show ix2 e c = ix2 e c'
    rw [hc]
  · intro e _; rfl
  · intro j hj
    obtain ⟨e, c', rfl⟩ : ∃ (e : Fin E) (c' : Fin D), j = ix2 e c' := ⟨j 0, j 1, eq_ix2 j⟩
    have hc : c' = c := ((rowScatter_resultIdx?_eq_some wf idx e c' n c).1 (Finset.mem_filter.1 hj).2).2
    show upd (ix2 e c') = upd (ix2 e c)
    rw [hc]

end RowScatterAdd

/-! ## The accumulating vector scatter read at a node -/

section VecScatter
variable {N E w : Nat} (wf : ScatterDims.WF ⟨1, ![N]⟩ ⟨2, ![E, 1]⟩ ⟨1, ![E]⟩ [] [0] [0] 1)
  (idx : IVec ⟨2, ![E, 1]⟩ w)

theorem vecScatter_start (e : Fin E) : (vecScatterDims N E wf).start (ix1 e) idx 0 = (idx (col e)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = col e := by
    funext b; refine Fin.ext ?_
    match b with
    | ⟨0, _⟩ => rfl
    | ⟨1, _⟩ => rfl
  rw [hsi]

theorem vecScatter_window (e : Fin E) : (vecScatterDims N E wf).window (ix1 e) 0 = 0 := by
  unfold ScatterDims.window
  rw [dif_neg (show ¬ (0 : Fin 1) ∈ (vecScatterDims N E wf).sKept from
    fun h => (mem_kept _ _).1 h (List.mem_singleton.mpr rfl))]

/-- Edge `e`'s number lands on node `n` exactly when `e`'s signed index is `n`. -/
theorem vecScatter_resultIdx?_eq_some (e : Fin E) (n : Fin N) :
    (vecScatterDims N E wf).resultIdx? (ix1 e) idx = some (ix1 n) ↔ (idx (col e)).toInt = (n.val : Int) := by
  unfold ScatterDims.resultIdx?
  split
  · rename_i h
    rw [Option.some.injEq]
    constructor
    · intro hf
      have h0 : ((vecScatterDims N E wf).start (ix1 e) idx 0 + ((vecScatterDims N E wf).window (ix1 e) 0 : Int)).toNat = n.val :=
        congrArg (fun f : (⟨1, ![N]⟩ : Shape).Idx => (f 0).val) hf
      have hh := (h 0).1
      rw [vecScatter_start, vecScatter_window] at h0 hh
      omega
    · intro h0
      funext a; refine Fin.ext ?_
      match a with
      | ⟨0, _⟩ =>
        show ((vecScatterDims N E wf).start (ix1 e) idx 0 + ((vecScatterDims N E wf).window (ix1 e) 0 : Int)).toNat = n.val
        rw [vecScatter_start, vecScatter_window]; omega
  · rename_i h
    constructor
    · intro hf; exact absurd hf (by simp)
    · intro h0
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [vecScatter_start, vecScatter_window]; have := n.isLt; omega

/-- Node `n` after the accumulating vector scatter: the old value plus the sum over the edges whose signed index
    is `n` of the edge's number. -/
theorem vecScatterAdd_apply (x : (⟨1, ![N]⟩ : Shape).Idx → EReal) (upd : (⟨1, ![E]⟩ : Shape).Idx → EReal) (n : Fin N) :
    Ideal.hostScatterAdd (vecScatterDims N E wf) x idx upd (ix1 n)
      = x (ix1 n) + ∑ e ∈ Finset.univ.filter (fun e : Fin E => (idx (col e)).toInt = (n.val : Int)), upd (ix1 e) := by
  unfold Ideal.hostScatterAdd
  congr 1
  refine Finset.sum_bij' (fun j _ => (j 0 : Fin E)) (fun e _ => ix1 e) ?_ ?_ ?_ ?_ ?_
  · intro j hj
    obtain ⟨e, rfl⟩ : ∃ e : Fin E, j = ix1 e := ⟨j 0, eq_ix1 j⟩
    exact Finset.mem_filter.2 ⟨Finset.mem_univ _,
      (vecScatter_resultIdx?_eq_some wf idx e n).1 (Finset.mem_filter.1 hj).2⟩
  · intro e he
    exact Finset.mem_filter.2 ⟨Finset.mem_univ _,
      (vecScatter_resultIdx?_eq_some wf idx e n).2 (Finset.mem_filter.1 he).2⟩
  · intro j _
    obtain ⟨e, rfl⟩ : ∃ e : Fin E, j = ix1 e := ⟨j 0, eq_ix1 j⟩
    rfl
  · intro e _; rfl
  · intro j _
    obtain ⟨e, rfl⟩ : ∃ e : Fin E, j = ix1 e := ⟨j 0, eq_ix1 j⟩
    rfl

end VecScatter

/-! ## The row gather read at an edge and a feature -/

section RowGather
variable {α : Type} {N E D w : Nat}
  (wf : GatherDims.WF ⟨2, ![N, D]⟩ ⟨2, ![E, 1]⟩ ⟨2, ![E, D]⟩ [1] [0] [] [0] [] 1 ![1, D])

/-- Edge `e`, feature `c` of the gathered table: the node table at the row the index column names for `e`, read
    signed and clamped into `[0, N − 1]`, at feature `c`. -/
theorem rowGather_apply (hN : 0 < N) (x : (⟨2, ![N, D]⟩ : Shape).Idx → α) (idx : IVec ⟨2, ![E, 1]⟩ w) (e : Fin E) (c : Fin D) :
    Host.gather (rowGatherDims N E D wf) x idx (ix2 e c)
      = x (ix2 (⟨min (idx (col e)).toInt.toNat (N - 1), by omega⟩ : Fin N) c) := by
  unfold Host.gather
  congr 1
  funext a
  refine Fin.ext ?_
  match a with
  | ⟨0, _⟩ =>
    show (rowGatherDims N E D wf).start (ix2 e c) idx 0 + (rowGatherDims N E D wf).batchCoord (ix2 e c) 0
      + (rowGatherDims N E D wf).offCoord (ix2 e c) 0 = min (idx (col e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e c) ⟨List.idxOf (0 : Fin 2) (rowGatherDims N E D wf).startIndexMap,
        List.idxOf_lt_length_iff.2 (List.mem_singleton.mpr rfl)⟩ = col e := by
      funext b; refine Fin.ext ?_
      match b with
      | ⟨0, _⟩ => rfl
      | ⟨1, _⟩ => rfl
    rw [hsi]
    rfl
  | ⟨1, _⟩ =>
    show (rowGatherDims N E D wf).start (ix2 e c) idx 1 + (rowGatherDims N E D wf).batchCoord (ix2 e c) 1
      + (rowGatherDims N E D wf).offCoord (ix2 e c) 1 = c.val
    rw [GatherDims.batchCoord_eq_zero _ _ _ List.not_mem_nil]
    have hs : (rowGatherDims N E D wf).start (ix2 e c) idx 1 = 0 := by
      unfold GatherDims.start
      rw [dif_neg (show ¬ (1 : Fin 2) ∈ (rowGatherDims N E D wf).startIndexMap from one_not_mem_zero)]
    have ho : (rowGatherDims N E D wf).offCoord (ix2 e c) 1 = c.val := by
      unfold GatherDims.offCoord
      rw [dif_pos (show (1 : Fin 2) ∈ (rowGatherDims N E D wf).sKept from
        (GatherDims.mem_sKept _ _).2 ⟨one_not_mem_zero, List.not_mem_nil⟩)]
      rfl
    rw [hs, ho]; omega

end RowGather

/-! ## A natural number of copies on the extended reals -/

/-- On the extended reals `k · a` is `a` added `k` times, for every `a`, infinite ones included: `k` and `1` are
    non-negative, and the distributive law holds for non-negative left factors. -/
theorem natCast_mul_eq_nsmul (k : ℕ) (a : EReal) : (k : EReal) * a = k • a := by
  induction k with
  | zero => simp
  | succ k ih =>
    have hk : (0 : EReal) ≤ (k : EReal) := by exact_mod_cast Nat.zero_le k
    rw [Nat.cast_succ, EReal.right_distrib_of_nonneg hk zero_le_one, ih, one_mul, succ_nsmul]

/-! ## The law -/

/-- THE LAW. Scatter, by the index column `sIdx`, the edge values `h[gIdx e] + u e` into a zero table. If `gIdx`
    agrees with `sIdx` wherever `sIdx` is non-negative, the result at node `n`, feature `c` is
    `(scatter of ones at n) · h n c + (scatter of u at n c)`: an edge that lands on `n` has signed index `n ≥ 0`, so its
    gathered row is row `n` itself; the sum of the constant `h n c` over those edges is their number times `h n c`. -/
theorem segmentSum_self_add {N E D w : Nat} (hN : 0 < N)
    (wfG : GatherDims.WF ⟨2, ![N, D]⟩ ⟨2, ![E, 1]⟩ ⟨2, ![E, D]⟩ [1] [0] [] [0] [] 1 ![1, D])
    (wfS : ScatterDims.WF ⟨2, ![N, D]⟩ ⟨2, ![E, 1]⟩ ⟨2, ![E, D]⟩ [1] [0] [0] 1)
    (wfV : ScatterDims.WF ⟨1, ![N]⟩ ⟨2, ![E, 1]⟩ ⟨1, ![E]⟩ [] [0] [0] 1)
    (h : (⟨2, ![N, D]⟩ : Shape).Idx → EReal) (u : (⟨2, ![E, D]⟩ : Shape).Idx → EReal)
    (sIdx gIdx : IVec ⟨2, ![E, 1]⟩ w)
    (hagree : ∀ e : Fin E, 0 ≤ (sIdx (col e)).toInt → gIdx (col e) = sIdx (col e))
    (n : Fin N) (c : Fin D) :
    Ideal.hostScatterAdd (rowScatterDims N E D wfS) (fun _ => 0) sIdx
        (fun j => Host.gather (rowGatherDims N E D wfG) h gIdx j + u j) (ix2 n c)
      = Ideal.hostScatterAdd (vecScatterDims N E wfV) (fun _ => 0) sIdx (fun _ => 1) (ix1 n) * h (ix2 n c)
        + Ideal.hostScatterAdd (rowScatterDims N E D wfS) (fun _ => 0) sIdx u (ix2 n c) := by
  rw [rowScatterAdd_apply, rowScatterAdd_apply, vecScatterAdd_apply]
  simp only [zero_add]
  have hg : ∀ e ∈ Finset.univ.filter (fun e : Fin E => (sIdx (col e)).toInt = (n.val : Int)),
      Host.gather (rowGatherDims N E D wfG) h gIdx (ix2 e c) + u (ix2 e c) = h (ix2 n c) + u (ix2 e c) := by
    intro e he
    have hs : (sIdx (col e)).toInt = (n.val : Int) := (Finset.mem_filter.1 he).2
    have hrow : (⟨min (gIdx (col e)).toInt.toNat (N - 1), by omega⟩ : Fin N) = n := by
      refine Fin.ext ?_
      show min (gIdx (col e)).toInt.toNat (N - 1) = n.val
      rw [hagree e (by omega)]
      have := n.isLt; omega
    rw [rowGather_apply wfG hN, hrow]
  rw [Finset.sum_congr rfl hg, Finset.sum_add_distrib, Finset.sum_const, Finset.sum_const, nsmul_one,
    natCast_mul_eq_nsmul]

/-! ## The wrapped index of a non-negative index is the index itself -/

/-- `x[i]` is lowered with `i < 0 ? i + N : i` in front of the gather; on a non-negative `i` that is `i`. -/
theorem select_slt_zero_of_nonneg (a b : BitVec 32) (h : 0 ≤ a.toInt) :
    Scalar.select (IntOp.cmpi .slt a 0#32) b a = a := by
  have hs : a.slt 0#32 = false := by
    simp only [BitVec.slt, BitVec.toInt_zero, decide_eq_false_iff_not, not_lt]; exact h
  unfold Scalar.select IntOp.cmpi
  simp [hs]

end Cert.Lib.SegmentSum

end
-- ==== Proof.Spec.lean ====
/-
  The boundary-convolution layer as plain functions on the extended reals, over the literal shapes
  (100000 nodes, 64 features, 1600000 edges):

    lin x w b      : node n, feature c ↦ Σ_k x[n,k] · w[c,k] + b[c]              (x · wᵀ + b)
    relu a         : max a 0
    combine β g γ α deg : (β · g + γ) / (α + β · deg + ε),  ε the f32 word 0x322BCC77
    aggPlain h     : node n ↦ Σ over the edges e landing on n of (h[gIdx e] + h[cIdx e])
    aggFolded h    : node n ↦ (number of edges landing on n) · h[n] + Σ over those edges of h[cIdx e]

  An edge LANDS on node n when its scatter index (`sIdx`, read signed) is exactly n. `aggPlain = aggFolded` when the
  first gather's index column agrees with the scatter's on every non-negative entry (LibSegmentSum's law): then
  `layerPlain = layerFolded`. The index columns stay parameters here: each program supplies its own.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«113187_j7619271983310_2_alg».proof.Proof.LibSegmentSum

noncomputable section

open scoped BigOperators

namespace Cert.BoundaryConv

open Idealize.ShloMosaic Idealize.ShloMosaic.ValueIdx Cert.Lib.SegmentSum

abbrev SNode : Shape := ⟨2, ![100000, 64]⟩
abbrev SWeight : Shape := ⟨2, ![64, 64]⟩
abbrev SBias : Shape := ⟨1, ![64]⟩
abbrev SDegree : Shape := ⟨2, ![100000, 1]⟩
abbrev SEdgeCol : Shape := ⟨2, ![1600000, 1]⟩
abbrev SEdgeRows : Shape := ⟨2, ![1600000, 64]⟩
abbrev SNodeVec : Shape := ⟨1, ![100000]⟩
abbrev SEdgeVec : Shape := ⟨1, ![1600000]⟩

theorem wfG : GatherDims.WF SNode SEdgeCol SEdgeRows [1] [0] [] [0] [] 1 ![1, 64] := by decide
theorem wfS : ScatterDims.WF SNode SEdgeCol SEdgeRows [1] [0] [0] 1 := by decide
theorem wfV : ScatterDims.WF SNodeVec SEdgeCol SEdgeVec [] [0] [0] 1 := by decide

/-- The row gather, the row scatter and the count's scatter at this layer's sizes. -/
abbrev dG : GatherDims SNode SEdgeCol SEdgeRows := rowGatherDims 100000 1600000 64 wfG
abbrev dS : ScatterDims SNode SEdgeCol SEdgeRows := rowScatterDims 100000 1600000 64 wfS
abbrev dV : ScatterDims SNodeVec SEdgeCol SEdgeVec := vecScatterDims 100000 1600000 wfV

/-! ## The dense pieces -/

/-- One affine layer at node `n`, feature `c`: `Σ_k x[n,k] · w[c,k] + b[c]` (the weight is used transposed). -/
def linAt (x : SNode.Idx → EReal) (w : SWeight.Idx → EReal) (b : SBias.Idx → EReal) (n : Fin 100000) (c : Fin 64) : EReal :=
  (∑ k : Fin 64, x (ix2 n k) * w (ix2 c k)) + b (ix1 c)

def lin (x : SNode.Idx → EReal) (w : SWeight.Idx → EReal) (b : SBias.Idx → EReal) : SNode.Idx → EReal :=
  fun i => linAt x w b (i 0) (i 1)

theorem lin_apply (x : SNode.Idx → EReal) (w : SWeight.Idx → EReal) (b : SBias.Idx → EReal) (n : Fin 100000) (c : Fin 64) :
    lin x w b (ix2 n c) = linAt x w b n c := rfl

/-- The same layer fed the weight already transposed (`wt[k,c] = w[c,k]`): `Σ_k x[n,k] · wt[k,c] + b[c]`. -/
def linTAt (x : SNode.Idx → EReal) (wt : SWeight.Idx → EReal) (b : SBias.Idx → EReal) (n : Fin 100000) (c : Fin 64) : EReal :=
  (∑ k : Fin 64, x (ix2 n k) * wt (ix2 k c)) + b (ix1 c)

def linT (x : SNode.Idx → EReal) (wt : SWeight.Idx → EReal) (b : SBias.Idx → EReal) : SNode.Idx → EReal :=
  fun i => linTAt x wt b (i 0) (i 1)

theorem linT_apply (x : SNode.Idx → EReal) (wt : SWeight.Idx → EReal) (b : SBias.Idx → EReal) (n : Fin 100000) (c : Fin 64) :
    linT x wt b (ix2 n c) = linTAt x wt b n c := rfl

/-- Fed the transposed weight it is the layer itself. -/
theorem linT_eq_lin (x : SNode.Idx → EReal) (w wt : SWeight.Idx → EReal) (b : SBias.Idx → EReal)
    (hw : ∀ (k c : Fin 64), wt (ix2 k c) = w (ix2 c k)) : linT x wt b = lin x w b := by
  funext i
  obtain ⟨n, c, rfl⟩ : ∃ (n : Fin 100000) (c : Fin 64), i = ix2 n c := ⟨i 0, i 1, eq_ix2 i⟩
  show linTAt x wt b n c = linAt x w b n c
  unfold linTAt linAt
  simp only [hw]

/-- `max a 0`, the zero being the f32 zero word. -/
def relu (a : SNode.Idx → EReal) : SNode.Idx → EReal := fun i => max (a i) (Ideal.ofBits .f32 0x00000000#32)

/-- The boundary combination at node `n`, feature `c`: `(β·g + γ) / (α + β·deg[n] + ε)`. -/
def combineAt (beta agg gamma alpha : SNode.Idx → EReal) (deg : SDegree.Idx → EReal) (n : Fin 100000) (c : Fin 64) : EReal :=
  Ideal.div (beta (ix2 n c) * agg (ix2 n c) + gamma (ix2 n c))
    (alpha (ix2 n c) + beta (ix2 n c) * deg (ix2 n (0 : Fin 1)) + Ideal.ofBits .f32 0x322BCC77#32)

def combine (beta agg gamma alpha : SNode.Idx → EReal) (deg : SDegree.Idx → EReal) : SNode.Idx → EReal :=
  fun i => combineAt beta agg gamma alpha deg (i 0) (i 1)

theorem combine_apply (beta agg gamma alpha : SNode.Idx → EReal) (deg : SDegree.Idx → EReal) (n : Fin 100000) (c : Fin 64) :
    combine beta agg gamma alpha deg (ix2 n c) = combineAt beta agg gamma alpha deg n c := rfl

/-! ## The aggregation, in its two arrangements -/

/-- Each edge contributes `h[gIdx e] + h[cIdx e]` to the node its scatter index names. -/
def aggPlain (h : SNode.Idx → EReal) (sIdx gIdx cIdx : IVec SEdgeCol 32) : SNode.Idx → EReal :=
  Ideal.hostScatterAdd dS (fun _ => 0) sIdx (fun j => Host.gather dG h gIdx j + Host.gather dG h cIdx j)

/-- The number of edges landing on a node times the node's own row, plus the sum of the neighbours' rows. -/
def aggFolded (h : SNode.Idx → EReal) (sIdx cIdx : IVec SEdgeCol 32) : SNode.Idx → EReal :=
  fun i => Ideal.hostScatterAdd dV (fun _ => 0) sIdx (fun _ => 1) (ix1 (i 0 : Fin 100000)) * h i
    + Ideal.hostScatterAdd dS (fun _ => 0) sIdx (Host.gather dG h cIdx) i

/-- The two arrangements agree when the first gather's index column is the scatter's on every non-negative entry. -/
theorem aggPlain_eq_aggFolded (h : SNode.Idx → EReal) (sIdx gIdx cIdx : IVec SEdgeCol 32)
    (hagree : ∀ e : Fin 1600000, 0 ≤ (sIdx (col e)).toInt → gIdx (col e) = sIdx (col e)) :
    aggPlain h sIdx gIdx cIdx = aggFolded h sIdx cIdx := by
  funext i
  obtain ⟨n, c, rfl⟩ : ∃ (n : Fin 100000) (c : Fin 64), i = ix2 n c := ⟨i 0, i 1, eq_ix2 i⟩
  exact segmentSum_self_add (by decide) wfG wfS wfV h (Host.gather dG h cIdx) sIdx gIdx hagree n c

/-! ## The layer -/

def layerPlain (x : SNode.Idx → EReal) (deg : SDegree.Idx → EReal)
    (fcW : SWeight.Idx → EReal) (fcB : SBias.Idx → EReal) (dirW : SWeight.Idx → EReal) (dirB : SBias.Idx → EReal)
    (neuW : SWeight.Idx → EReal) (neuB : SBias.Idx → EReal) (robW : SWeight.Idx → EReal) (robB : SBias.Idx → EReal)
    (sIdx gIdx cIdx : IVec SEdgeCol 32) : SNode.Idx → EReal :=
  combine (relu (lin x neuW neuB)) (aggPlain (lin x fcW fcB) sIdx gIdx cIdx) (lin x robW robB) (relu (lin x dirW dirB)) deg

def layerFolded (x : SNode.Idx → EReal) (deg : SDegree.Idx → EReal)
    (fcW : SWeight.Idx → EReal) (fcB : SBias.Idx → EReal) (dirW : SWeight.Idx → EReal) (dirB : SBias.Idx → EReal)
    (neuW : SWeight.Idx → EReal) (neuB : SBias.Idx → EReal) (robW : SWeight.Idx → EReal) (robB : SBias.Idx → EReal)
    (sIdx cIdx : IVec SEdgeCol 32) : SNode.Idx → EReal :=
  combine (relu (lin x neuW neuB)) (aggFolded (lin x fcW fcB) sIdx cIdx) (lin x robW robB) (relu (lin x dirW dirB)) deg

theorem layerPlain_eq_layerFolded (x : SNode.Idx → EReal) (deg : SDegree.Idx → EReal)
    (fcW : SWeight.Idx → EReal) (fcB : SBias.Idx → EReal) (dirW : SWeight.Idx → EReal) (dirB : SBias.Idx → EReal)
    (neuW : SWeight.Idx → EReal) (neuB : SBias.Idx → EReal) (robW : SWeight.Idx → EReal) (robB : SBias.Idx → EReal)
    (sIdx gIdx cIdx : IVec SEdgeCol 32)
    (hagree : ∀ e : Fin 1600000, 0 ≤ (sIdx (col e)).toInt → gIdx (col e) = sIdx (col e)) :
    layerPlain x deg fcW fcB dirW dirB neuW neuB robW robB sIdx gIdx cIdx
      = layerFolded x deg fcW fcB dirW dirB neuW neuB robW robB sIdx cIdx := by
  unfold layerPlain layerFolded
  rw [aggPlain_eq_aggFolded _ _ _ _ hagree]

/-! ## Constant splats, at the ideal reading -/

/-- A rank-0 constant splat over any shape is the constant function. -/
theorem splat_apply {t : Shape} (hb : (⟨0, ![]⟩ : Shape).BroadcastsInDim t (![] : Fin 0 → Fin t.rank)) (bits : BitVec 32) (i : t.Idx) :
    broadcastInDim t ![] hb (constant (F := Ideal) ⟨0, ![]⟩ .f32 bits) i = Ideal.ofBits .f32 bits :=
  (broadcastInDim_apply _ hb _ i ix0 (fun a => a.elim0)).trans rfl

theorem splat_zero {t : Shape} (hb : (⟨0, ![]⟩ : Shape).BroadcastsInDim t (![] : Fin 0 → Fin t.rank)) :
    broadcastInDim t ![] hb (constant (F := Ideal) ⟨0, ![]⟩ .f32 0x00000000#32) = fun _ => (0 : EReal) :=
  funext fun i => (splat_apply hb _ i).trans Ideal.ofBits_zero_f32

theorem splat_one {t : Shape} (hb : (⟨0, ![]⟩ : Shape).BroadcastsInDim t (![] : Fin 0 → Fin t.rank)) :
    broadcastInDim t ![] hb (constant (F := Ideal) ⟨0, ![]⟩ .f32 0x3F800000#32) = fun _ => (1 : EReal) :=
  funext fun i => (splat_apply hb _ i).trans Ideal.ofBits_one_f32

end Cert.BoundaryConv

end
-- ==== Proof.KernelRun.lean ====
/-
  The idealized kernel's run with its RESULT named. The program is two tiled regions among stretches of host
  operations; its buffer contents at each boundary are a fold from the launch memory, ending at `Gen.W4`. Every
  weakly fair execution terminates, nothing faulting, the arguments end as launched, and the result buffer ends at
  `Gen.W4`'s contents for it — the last boundary's contents read at the result's buffer exactly as they are read at
  each argument's.
-/
import proofs.«113187_j7619271983310_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.ValueRun

end
-- ==== Proof.KernelHost.lean ====
/-
  What the kernel's two tiled regions find in their input buffers. The program runs four weight transposes, then the
  projection region, then the edge stretch — the two rows of the edge array sliced out and flattened, the column row
  wrapped (`i < 0 ? i + 100000 : i`), the rows of `h` gathered by it and scatter-added by the raw first row, ones
  scatter-added the same way for the per-node count, `count · h + sum` —, then the combination region.
  Each statement reads one buffer after a stretch as the stretch's operations applied to the contents before it; a
  buffer the stretch does not write keeps its contents.
-/
import proofs.«113187_j7619271983310_2_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo

variable {F : FTy → Type} [FloatOps F]

/-! ## The edge stretch's terms -/

/-- The first row of the edge array, flattened: one entry per edge. -/
def edgeRow0 (ed : (⟨S2x1600000, .i32⟩ : BufTy).Contents (Elt F)) : (⟨S1600000, .i32⟩ : BufTy).Contents (Elt F) :=
  fun i => shapeCast main_v6.ty.shape (extractStridedSlice S1x1600000 ![0, 0] ed slices_S2x1600000_S1x1600000_0_0)
    shapeCasts_S1x1600000_S1600000 i

/-- The second row of the edge array, flattened likewise. -/
def edgeRow1 (ed : (⟨S2x1600000, .i32⟩ : BufTy).Contents (Elt F)) : (⟨S1600000, .i32⟩ : BufTy).Contents (Elt F) :=
  fun i => shapeCast main_v8.ty.shape (extractStridedSlice S1x1600000 ![1, 0] ed slices_S2x1600000_S1x1600000_1_0)
    shapeCasts_S1x1600000_S1600000 i

/-- The scatter's index column: the raw first row. -/
def scatterCol (ed : (⟨S2x1600000, .i32⟩ : BufTy).Contents (Elt F)) : (⟨S1600000x1, .i32⟩ : BufTy).Contents (Elt F) :=
  broadcastInDim S1600000x1 ![0] bcast_S1600000_S1600000x1_0 (edgeRow0 (F := F) ed)

/-- The gather's index column: the second row, negative entries wrapped by `+ 100000`. -/
def gatherCol (ed : (⟨S2x1600000, .i32⟩ : BufTy).Contents (Elt F)) : (⟨S1600000x1, .i32⟩ : BufTy).Contents (Elt F) :=
  broadcastInDim S1600000x1 ![0] bcast_S1600000_S1600000x1_0
    (select (cmpi .slt (edgeRow1 (F := F) ed) (broadcastInDim S1600000 ![] bcast_S_S1600000 (constantI S_ 32 0#32)))
      (addi (edgeRow1 (F := F) ed) (broadcastInDim S1600000 ![] bcast_S_S1600000 (constantI S_ 32 100000#32)))
      (edgeRow1 (F := F) ed))

/-- `count · h + sum of gathered rows`, as the program computes it from `h` and the edge array. -/
def aggTerm (h : (⟨S100000x64, .f32⟩ : BufTy).Contents (Elt F)) (ed : (⟨S2x1600000, .i32⟩ : BufTy).Contents (Elt F)) :
    (⟨S100000x64, .f32⟩ : BufTy).Contents (Elt F) :=
  addf
    (mulf
      (broadcastInDim S100000x64 ![0, 1] bcast_S100000x1_S100000x64_0_1
        (broadcastInDim S100000x1 ![0] bcast_S100000_S100000x1_0
          (Host.scatterAdd scatter_S100000_S1600000x1_S1600000_n_0_0_1
            (broadcastInDim S100000 ![] bcast_S_S100000 (constant S_ .f32 0x00000000#32))
            (scatterCol (F := F) ed)
            (broadcastInDim S1600000 ![] bcast_S_S1600000 (constant S_ .f32 0x3F800000#32)))))
      h)
    (Host.scatterAdd scatter_S100000x64_S1600000x1_S1600000x64_1_0_0_1
      (broadcastInDim S100000x64 ![] bcast_S_S100000x64 (constant S_ .f32 0x00000000#32))
      (scatterCol (F := F) ed)
      (Host.gather gather_S100000x64_S1600000x1_S1600000x64_1_0_n_n_0_1_164 h (gatherCol (F := F) ed)))

variable (Z : Valuation τ sig (Elt F))

/-! ## Before the projection region: the weights transposed, everything else untouched -/

theorem pre0_v0 : after (hostOps0 (F := F)) Z (Proc.devRef .tc main_v0)
    = transpose S64x64 [1, 0] (Z (Proc.devRef .tc main_arg3)) transposes_S64x64_S64x64_1_0 := by
  dsimp only [hostOps0]; after_results
theorem pre0_v1 : after (hostOps0 (F := F)) Z (Proc.devRef .tc main_v1)
    = transpose S64x64 [1, 0] (Z (Proc.devRef .tc main_arg5)) transposes_S64x64_S64x64_1_0 := by
  dsimp only [hostOps0]; after_results
theorem pre0_v2 : after (hostOps0 (F := F)) Z (Proc.devRef .tc main_v2)
    = transpose S64x64 [1, 0] (Z (Proc.devRef .tc main_arg7)) transposes_S64x64_S64x64_1_0 := by
  dsimp only [hostOps0]; after_results
theorem pre0_v3 : after (hostOps0 (F := F)) Z (Proc.devRef .tc main_v3)
    = transpose S64x64 [1, 0] (Z (Proc.devRef .tc main_arg9)) transposes_S64x64_S64x64_1_0 := by
  dsimp only [hostOps0]; after_results

theorem pre0_arg0 : after (hostOps0 (F := F)) Z (Proc.devRef .tc main_arg0) = Z (Proc.devRef .tc main_arg0) := by
  dsimp only [hostOps0]; after_results
theorem pre0_arg1 : after (hostOps0 (F := F)) Z (Proc.devRef .tc main_arg1) = Z (Proc.devRef .tc main_arg1) := by
  dsimp only [hostOps0]; after_results
theorem pre0_arg2 : after (hostOps0 (F := F)) Z (Proc.devRef .tc main_arg2) = Z (Proc.devRef .tc main_arg2) := by
  dsimp only [hostOps0]; after_results
theorem pre0_arg4 : after (hostOps0 (F := F)) Z (Proc.devRef .tc main_arg4) = Z (Proc.devRef .tc main_arg4) := by
  dsimp only [hostOps0]; after_results
theorem pre0_arg6 : after (hostOps0 (F := F)) Z (Proc.devRef .tc main_arg6) = Z (Proc.devRef .tc main_arg6) := by
  dsimp only [hostOps0]; after_results
theorem pre0_arg8 : after (hostOps0 (F := F)) Z (Proc.devRef .tc main_arg8) = Z (Proc.devRef .tc main_arg8) := by
  dsimp only [hostOps0]; after_results
theorem pre0_arg10 : after (hostOps0 (F := F)) Z (Proc.devRef .tc main_arg10) = Z (Proc.devRef .tc main_arg10) := by
  dsimp only [hostOps0]; after_results

/-! ## Before the combination region: the aggregate computed, the projections and the degree untouched -/

set_option maxHeartbeats 2000000 in
theorem pre1_v26 : after (hostOps1 (F := F)) Z (Proc.devRef .tc main_v26)
    = aggTerm (F := F) (Z (Proc.devRef .tc main_v4_0)) (Z (Proc.devRef .tc main_arg1)) := by
  dsimp only [hostOps1]
  after_results_simp
  rfl

theorem pre1_v4_1 : after (hostOps1 (F := F)) Z (Proc.devRef .tc main_v4_1) = Z (Proc.devRef .tc main_v4_1) := by
  dsimp only [hostOps1]; after_results
theorem pre1_v4_2 : after (hostOps1 (F := F)) Z (Proc.devRef .tc main_v4_2) = Z (Proc.devRef .tc main_v4_2) := by
  dsimp only [hostOps1]; after_results
theorem pre1_v4_3 : after (hostOps1 (F := F)) Z (Proc.devRef .tc main_v4_3) = Z (Proc.devRef .tc main_v4_3) := by
  dsimp only [hostOps1]; after_results
theorem pre1_arg2 : after (hostOps1 (F := F)) Z (Proc.devRef .tc main_arg2) = Z (Proc.devRef .tc main_arg2) := by
  dsimp only [hostOps1]; after_results

end Cert.KernelIdeal.HostValue

end
-- ==== Proof.KernelRegion0.lean ====
/-
  The projection region's closed forms. Each of its four output arrays is one function of the arrays the region finds:
  an affine map x · wt + b of the node table by a weight already transposed, for two of them followed by max(·, 0).
  At every grid point the body's result, cut to the point's block, is that function read through the block (the row
  windows all move together, block t holding rows 5000·t … 5000·t + 4999; the weight and bias windows are whole), and
  the twenty blocks cover the array, so the array ends holding the function.
-/
import proofs.«113187_j7619271983310_2_alg».proof.Proof.Gen.KernelIdeal.Frame
import proofs.«113187_j7619271983310_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Cert.BoundaryConv Idealize.ShloMosaic.ValueIdx

/-! ## The payloads at an index -/

theorem zeroOffset2_0 : (![0, 0] : Fin 2 → Nat) = fun _ => 0 := funext fun a => by fin_cases a <;> rfl
theorem zeroOffset1_0 : (![0] : Fin 1 → Nat) = fun _ => 0 := funext fun a => by fin_cases a; rfl

theorem lhsRow0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhsCol0 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsRow0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsCol0 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The block's matrix product into the zero accumulator, at row r and feature q: the sum over the 64 contracted
    positions of the products. -/
theorem matmulZero0_apply {φ₁ φ₂ : FTy} (a : FVec Ideal S5000x64 φ₁) (w : FVec Ideal S64x64 φ₂) (r : Fin 5000) (q : Fin 64) :
    matmul dot_S5000x64_S64x64_S5000x64_1_0_0_1_n_n none a w (constant (F := Ideal) S5000x64 .f32 0x00000000#32) (ix2 r q)
      = ∑ k : Fin 64, a (ix2 r k) * w (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r q) ((ValueIdx.contrEquiv1 dot_S5000x64_S64x64_S5000x64_1_0_0_1_n_n 64 rfl rfl).symm k) = ix2 r k := funext fun a => Fin.ext (by
    match a with
    | ⟨0, _⟩ => exact lhsRow0 _ _
    | ⟨1, _⟩ => exact (lhsCol0 _ _).trans hk)
  have er : dot_S5000x64_S64x64_S5000x64_1_0_0_1_n_n.rhsIdx (ix2 r q) ((ValueIdx.contrEquiv1 dot_S5000x64_S64x64_S5000x64_1_0_0_1_n_n 64 rfl rfl).symm k) = ix2 k q := funext fun a => Fin.ext (by
    match a with
    | ⟨0, _⟩ => exact (rhsRow0 _ _).trans hk
    | ⟨1, _⟩ => exact rhsCol0 _ _)
  rw [el, er]

/-- The bias recast to one row and repeated down the block, at row r and feature q: the bias at q. -/
theorem biasRows0_apply (b : Vec Ideal S64 .f32) (r : Fin 5000) (q : Fin 64) :
    broadcastTo S5000x64 (shapeCast S1x64 b shapeCasts_S64_S1x64) broadcasts_S1x64_S5000x64 (ix2 r q) = b (ix1 q) := by
  rw [broadcastTo_apply _ broadcasts_S1x64_S5000x64 (ix2 r q) (ix2 (0 : Fin 1) q) (fun a => by
    match a with
    | ⟨0, _⟩ => rfl
    | ⟨1, _⟩ => rfl)]
  rw [shapeCast_addUnit_apply]
  exact congrArg b (funext fun a => by match a with | ⟨0, _⟩ => rfl)

theorem k0_pay3_apply (x0 : Vec Ideal S5000x64 .f32) (w : Vec Ideal S64x64 .f32) (b : Vec Ideal S64 .f32) (r : Fin 5000) (q : Fin 64) :
    k0_pay3 x0 w b (ix2 r q) = (∑ k : Fin 64, x0 (ix2 r k) * w (ix2 k q)) + b (ix1 q) := by
  dsimp only [k0_pay3, k0_pay2]
  rw [addf_apply, matmulZero0_apply, biasRows0_apply, shapeCast_self]
  rfl

theorem k0_pay4_apply (x0 : Vec Ideal S5000x64 .f32) (w : Vec Ideal S64x64 .f32) (b : Vec Ideal S64 .f32) (r : Fin 5000) (q : Fin 64) :
    k0_pay4 x0 w b (ix2 r q) = max ((∑ k : Fin 64, x0 (ix2 r k) * w (ix2 k q)) + b (ix1 q)) (Ideal.ofBits .f32 0x00000000#32) := by
  dsimp only [k0_pay4, k0_pay2]
  rw [maximumf_apply, addf_apply, matmulZero0_apply, biasRows0_apply, shapeCast_self]
  rfl

theorem k0_pay5_apply (x0 : Vec Ideal S5000x64 .f32) (w : Vec Ideal S64x64 .f32) (b : Vec Ideal S64 .f32) (r : Fin 5000) (q : Fin 64) :
    k0_pay5 x0 w b (ix2 r q) = max ((∑ k : Fin 64, x0 (ix2 r k) * w (ix2 k q)) + b (ix1 q)) (Ideal.ofBits .f32 0x00000000#32) := by
  dsimp only [k0_pay5, k0_pay2]
  rw [maximumf_apply, addf_apply, matmulZero0_apply, biasRows0_apply, shapeCast_self]
  rfl

theorem k0_pay1_apply (x0 : Vec Ideal S5000x64 .f32) (w : Vec Ideal S64x64 .f32) (b : Vec Ideal S64 .f32) (r : Fin 5000) (q : Fin 64) :
    k0_pay1 (k0_pay2 x0) w b (ix2 r q) = (∑ k : Fin 64, x0 (ix2 r k) * w (ix2 k q)) + b (ix1 q) := by
  dsimp only [k0_pay1, k0_pay2]
  rw [addf_apply, matmulZero0_apply, biasRows0_apply, shapeCast_self]
  rfl

/-! ## Where the windows' blocks sit -/

/-- The printed index maps over the twenty grid points: every row window is at block row t, column block 0; the weight
    and bias windows stay at block 0. -/
theorem blockIndex0 : ∀ t : Fin cfg0.N,
    (win0_0.index t (0 : Fin 2) = t.val ∧ win0_0.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_1.index t (0 : Fin 2) = 0 ∧ win0_1.index t (1 : Fin 2) = 0 ∧ win0_2.index t (0 : Fin 1) = 0)
    ∧ (win0_3.index t (0 : Fin 2) = 0 ∧ win0_3.index t (1 : Fin 2) = 0 ∧ win0_4.index t (0 : Fin 1) = 0)
    ∧ (win0_5.index t (0 : Fin 2) = 0 ∧ win0_5.index t (1 : Fin 2) = 0 ∧ win0_6.index t (0 : Fin 1) = 0)
    ∧ (win0_7.index t (0 : Fin 2) = 0 ∧ win0_7.index t (1 : Fin 2) = 0 ∧ win0_8.index t (0 : Fin 1) = 0) :=
  (by decide +kernel : ∀ t : Fin grid0.N, _)

/-- Block tv of the affine map of whole arrays, computed from the blocks: when the row block holds rows
    5000·tv … 5000·tv + 4999 of x and the weight and bias blocks are the whole weight and bias, the block-level sum at
    row r is the array-level affine map at row 5000·tv + r. -/
theorem linT_block0 (X : SNode.Idx → EReal) (W : SWeight.Idx → EReal) (B : SBias.Idx → EReal)
    (x0 : Vec Ideal S5000x64 .f32) (w : Vec Ideal S64x64 .f32) (b : Vec Ideal S64 .f32) (tv : Nat) (htv : tv < 20)
    (hx : ∀ (r : Fin 5000) (k : Fin 64), x0 (ix2 r k) = X (ix2 (⟨tv * 5000 + r.val, by omega⟩ : Fin 100000) k))
    (hw : ∀ k q : Fin 64, w (ix2 k q) = W (ix2 k q)) (hb : ∀ q : Fin 64, b (ix1 q) = B (ix1 q)) (r : Fin 5000) (q : Fin 64) :
    (∑ k : Fin 64, x0 (ix2 r k) * w (ix2 k q)) + b (ix1 q)
      = linT X W B (ix2 (⟨tv * 5000 + r.val, by omega⟩ : Fin 100000) q) := by
  rw [linT_apply]
  unfold linTAt
  simp only [hx, hw, hb]

section
variable (V : (c : Dev nD) → (b : Ref sig .tc) → Buf (Elt Ideal) ((c : Thread nD τ).loc b)) (c : Dev nD)

/-- The node-table block at point t holds rows 5000·t … 5000·t + 4999 of the node table. -/
theorem rowBlock0 (t : Fin cfg0.N) (ht : t.val < 20) (r : Fin 5000) (k : Fin 64) :
    iblk0 V c 0 t (ix2 r k) = V c main_arg0 (ix2 (⟨t.val * 5000 + r.val, by omega⟩ : Fin 100000) k) := by
  obtain ⟨⟨e0, e1⟩, -⟩ := blockIndex0 t
  have e : ((cfg0.win 0).blk t).view.emb (ix2 r k) = ix2 (⟨t.val * 5000 + r.val, by omega⟩ : Fin 100000) k := by
    funext a; apply Fin.ext
    match a with
    | ⟨0, _⟩ => show win0_0.index t (0 : Fin 2) * 5000 + 1 * r.val = t.val * 5000 + r.val; rw [e0]; omega
    | ⟨1, _⟩ => show win0_0.index t (1 : Fin 2) * 64 + 1 * k.val = k.val; rw [e1]; omega
  show V c main_arg0 (((cfg0.win 0).blk t).view.emb (ix2 r k)) = _
  rw [e]

/-- The weight block of window 1 and the bias block of window 2 are the whole arrays at every point. -/
theorem weightBlock0_1 (t : Fin cfg0.N) (k q : Fin 64) : iblk0 V c 1 t (ix2 k q) = V c main_v0 (ix2 k q) := by
  obtain ⟨-, -, -, -, -, ⟨e0, e1, e2⟩, -, -, -⟩ := blockIndex0 t
  have e : ((cfg0.win 1).blk t).view.emb (ix2 k q) = ix2 k q := by
    funext a; apply Fin.ext
    match a with
    | ⟨0, _⟩ => show win0_1.index t (0 : Fin 2) * 64 + 1 * k.val = k.val; rw [e0]; omega
    | ⟨1, _⟩ => show win0_1.index t (1 : Fin 2) * 64 + 1 * q.val = q.val; rw [e1]; omega
  show V c main_v0 (((cfg0.win 1).blk t).view.emb (ix2 k q)) = _
  rw [e]

theorem biasBlock0_2 (t : Fin cfg0.N) (q : Fin 64) : iblk0 V c 2 t (ix1 q) = V c main_arg4 (ix1 q) := by
  obtain ⟨-, -, -, -, -, ⟨e0, e1, e2⟩, -, -, -⟩ := blockIndex0 t
  have e : ((cfg0.win 2).blk t).view.emb (ix1 q) = ix1 q := by
    funext a; apply Fin.ext
    match a with
    | ⟨0, _⟩ => show win0_2.index t (0 : Fin 1) * 64 + 1 * q.val = q.val; rw [e2]; omega
  show V c main_arg4 (((cfg0.win 2).blk t).view.emb (ix1 q)) = _
  rw [e]

/-- The weight block of window 3 and the bias block of window 4 are the whole arrays at every point. -/
theorem weightBlock0_3 (t : Fin cfg0.N) (k q : Fin 64) : iblk0 V c 3 t (ix2 k q) = V c main_v1 (ix2 k q) := by
  obtain ⟨-, -, -, -, -, -, ⟨e0, e1, e2⟩, -, -⟩ := blockIndex0 t
  have e : ((cfg0.win 3).blk t).view.emb (ix2 k q) = ix2 k q := by
    funext a; apply Fin.ext
    match a with
    | ⟨0, _⟩ => show win0_3.index t (0 : Fin 2) * 64 + 1 * k.val = k.val; rw [e0]; omega
    | ⟨1, _⟩ => show win0_3.index t (1 : Fin 2) * 64 + 1 * q.val = q.val; rw [e1]; omega
  show V c main_v1 (((cfg0.win 3).blk t).view.emb (ix2 k q)) = _
  rw [e]

theorem biasBlock0_4 (t : Fin cfg0.N) (q : Fin 64) : iblk0 V c 4 t (ix1 q) = V c main_arg6 (ix1 q) := by
  obtain ⟨-, -, -, -, -, -, ⟨e0, e1, e2⟩, -, -⟩ := blockIndex0 t
  have e : ((cfg0.win 4).blk t).view.emb (ix1 q) = ix1 q := by
    funext a; apply Fin.ext
    match a with
    | ⟨0, _⟩ => show win0_4.index t (0 : Fin 1) * 64 + 1 * q.val = q.val; rw [e2]; omega
  show V c main_arg6 (((cfg0.win 4).blk t).view.emb (ix1 q)) = _
  rw [e]

/-- The weight block of window 5 and the bias block of window 6 are the whole arrays at every point. -/
theorem weightBlock0_5 (t : Fin cfg0.N) (k q : Fin 64) : iblk0 V c 5 t (ix2 k q) = V c main_v2 (ix2 k q) := by
  obtain ⟨-, -, -, -, -, -, -, ⟨e0, e1, e2⟩, -⟩ := blockIndex0 t
  have e : ((cfg0.win 5).blk t).view.emb (ix2 k q) = ix2 k q := by
    funext a; apply Fin.ext
    match a with
    | ⟨0, _⟩ => show win0_5.index t (0 : Fin 2) * 64 + 1 * k.val = k.val; rw [e0]; omega
    | ⟨1, _⟩ => show win0_5.index t (1 : Fin 2) * 64 + 1 * q.val = q.val; rw [e1]; omega
  show V c main_v2 (((cfg0.win 5).blk t).view.emb (ix2 k q)) = _
  rw [e]

theorem biasBlock0_6 (t : Fin cfg0.N) (q : Fin 64) : iblk0 V c 6 t (ix1 q) = V c main_arg8 (ix1 q) := by
  obtain ⟨-, -, -, -, -, -, -, ⟨e0, e1, e2⟩, -⟩ := blockIndex0 t
  have e : ((cfg0.win 6).blk t).view.emb (ix1 q) = ix1 q := by
    funext a; apply Fin.ext
    match a with
    | ⟨0, _⟩ => show win0_6.index t (0 : Fin 1) * 64 + 1 * q.val = q.val; rw [e2]; omega
  show V c main_arg8 (((cfg0.win 6).blk t).view.emb (ix1 q)) = _
  rw [e]

/-- The weight block of window 7 and the bias block of window 8 are the whole arrays at every point. -/
theorem weightBlock0_7 (t : Fin cfg0.N) (k q : Fin 64) : iblk0 V c 7 t (ix2 k q) = V c main_v3 (ix2 k q) := by
  obtain ⟨-, -, -, -, -, -, -, -, ⟨e0, e1, e2⟩⟩ := blockIndex0 t
  have e : ((cfg0.win 7).blk t).view.emb (ix2 k q) = ix2 k q := by
    funext a; apply Fin.ext
    match a with
    | ⟨0, _⟩ => show win0_7.index t (0 : Fin 2) * 64 + 1 * k.val = k.val; rw [e0]; omega
    | ⟨1, _⟩ => show win0_7.index t (1 : Fin 2) * 64 + 1 * q.val = q.val; rw [e1]; omega
  show V c main_v3 (((cfg0.win 7).blk t).view.emb (ix2 k q)) = _
  rw [e]

theorem biasBlock0_8 (t : Fin cfg0.N) (q : Fin 64) : iblk0 V c 8 t (ix1 q) = V c main_arg10 (ix1 q) := by
  obtain ⟨-, -, -, -, -, -, -, -, ⟨e0, e1, e2⟩⟩ := blockIndex0 t
  have e : ((cfg0.win 8).blk t).view.emb (ix1 q) = ix1 q := by
    funext a; apply Fin.ext
    match a with
    | ⟨0, _⟩ => show win0_8.index t (0 : Fin 1) * 64 + 1 * q.val = q.val; rw [e2]; omega
  show V c main_arg10 (((cfg0.win 8).blk t).view.emb (ix1 q)) = _
  rw [e]

/-! ## Output window 9 -/

/-- What point t writes back to window 9's array is block t of the closed form. -/
theorem flushed0_9_eq (t : Fin cfg0.N) :
    (dat0 V c).flushed 9 t = ((cfg0.win 9).blk t).view.read (Elt Ideal) (linT (V c main_arg0) (V c main_v0) (V c main_arg4)) := by
  have ht : t.val < 20 := lt_of_lt_of_eq t.isLt N_0
  obtain ⟨-, ⟨e0, e1⟩, -⟩ := blockIndex0 t
  show (cfg0.win 9).cut (grid0.coords t) ((dat0 V c).after 9 t) = _
  rw [after0_9]
  unfold out0_9
  rw [View.canon_unit_zero zeroOffset2_0]
  simp only [View.ld_unit_zero (S := S5000x64) zeroOffset2_0, View.ld_unit_zero (S := S64x64) zeroOffset2_0, View.ld_unit_zero (S := S64) zeroOffset1_0]
  funext j
  obtain ⟨r, q, rfl⟩ : ∃ (r : Fin 5000) (q : Fin 64), j = ix2 r q := ⟨j 0, j 1, eq_ix2 (n0 := 5000) (n1 := 64) j⟩
  have e : ((cfg0.win 9).blk t).view.emb (ix2 r q) = ix2 (⟨t.val * 5000 + r.val, by omega⟩ : Fin 100000) q := by
    funext a; apply Fin.ext
    match a with
    | ⟨0, _⟩ => show win0_9.index t (0 : Fin 2) * 5000 + 1 * r.val = t.val * 5000 + r.val; rw [e0]; omega
    | ⟨1, _⟩ => show win0_9.index t (1 : Fin 2) * 64 + 1 * q.val = q.val; rw [e1]; omega
  show k0_pay3 (iblk0 V c 0 t) (iblk0 V c 1 t) (iblk0 V c 2 t) (ix2 r q) = (linT (V c main_arg0) (V c main_v0) (V c main_arg4)) (((cfg0.win 9).blk t).view.emb (ix2 r q))
  rw [e, k0_pay3_apply,
    linT_block0 (V c main_arg0) (V c main_v0) (V c main_arg4) _ _ _ t.val ht (rowBlock0 V c t ht) (weightBlock0_1 V c t) (biasBlock0_2 V c t) r q]

/-- A node–feature index lies in point t's block exactly when its row is one of the block's 5000 rows and its feature one of the 64. -/
theorem mem_blk0_9 (t : Fin cfg0.N) (i : S100000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v4_0).slice (win0_9.rect t)).set ↔ _
  rw [View.set_slice_whole, Rect.mem_set_unit]
  exact Iff.rfl

/-- Row n of the array is in the block of point n / 5000, and every point writes its block back. -/
theorem blocksCover0_9 (i : S100000x64.Idx) :
    ∃ t : Fin cfg0.N, (cfg0.win 9).flush t = true ∧ i ∈ ((cfg0.win 9).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, ⟨e0, e1⟩, -⟩ := blockIndex0 t
  refine ⟨t, flush0_9 t, ?_⟩
  rw [mem_blk0_9]
  intro a
  match a with
  | ⟨0, _⟩ => show win0_9.index t (0 : Fin 2) * 5000 ≤ (i 0).val ∧ (i 0).val < win0_9.index t (0 : Fin 2) * 5000 + 5000; rw [e0, ht]; omega
  | ⟨1, _⟩ => show win0_9.index t (1 : Fin 2) * 64 ≤ (i 1).val ∧ (i 1).val < win0_9.index t (1 : Fin 2) * 64 + 64; rw [e1]; omega

/-- The array after the region is the closed form. -/
theorem final0_9 : (dat0 V c).arrAt 9 cfg0.N = linT (V c main_arg0) (V c main_v0) (V c main_arg4) :=
  (dat0 V c).arrAt_eq_of_cover 9 _ (fun t _ => flushed0_9_eq V c t) (blocksCover0_9)

/-! ## Output window 10 -/

/-- What point t writes back to window 10's array is block t of the closed form. -/
theorem flushed0_10_eq (t : Fin cfg0.N) :
    (dat0 V c).flushed 10 t = ((cfg0.win 10).blk t).view.read (Elt Ideal) (relu (linT (V c main_arg0) (V c main_v1) (V c main_arg6))) := by
  have ht : t.val < 20 := lt_of_lt_of_eq t.isLt N_0
  obtain ⟨-, -, ⟨e0, e1⟩, -⟩ := blockIndex0 t
  show (cfg0.win 10).cut (grid0.coords t) ((dat0 V c).after 10 t) = _
  rw [after0_10]
  unfold out0_10
  rw [View.canon_unit_zero zeroOffset2_0]
  simp only [View.ld_unit_zero (S := S5000x64) zeroOffset2_0, View.ld_unit_zero (S := S64x64) zeroOffset2_0, View.ld_unit_zero (S := S64) zeroOffset1_0]
  funext j
  obtain ⟨r, q, rfl⟩ : ∃ (r : Fin 5000) (q : Fin 64), j = ix2 r q := ⟨j 0, j 1, eq_ix2 (n0 := 5000) (n1 := 64) j⟩
  have e : ((cfg0.win 10).blk t).view.emb (ix2 r q) = ix2 (⟨t.val * 5000 + r.val, by omega⟩ : Fin 100000) q := by
    funext a; apply Fin.ext
    match a with
    | ⟨0, _⟩ => show win0_10.index t (0 : Fin 2) * 5000 + 1 * r.val = t.val * 5000 + r.val; rw [e0]; omega
    | ⟨1, _⟩ => show win0_10.index t (1 : Fin 2) * 64 + 1 * q.val = q.val; rw [e1]; omega
  show k0_pay4 (iblk0 V c 0 t) (iblk0 V c 3 t) (iblk0 V c 4 t) (ix2 r q) = (relu (linT (V c main_arg0) (V c main_v1) (V c main_arg6))) (((cfg0.win 10).blk t).view.emb (ix2 r q))
  rw [e, k0_pay4_apply,
    linT_block0 (V c main_arg0) (V c main_v1) (V c main_arg6) _ _ _ t.val ht (rowBlock0 V c t ht) (weightBlock0_3 V c t) (biasBlock0_4 V c t) r q]
  rfl

/-- A node–feature index lies in point t's block exactly when its row is one of the block's 5000 rows and its feature one of the 64. -/
theorem mem_blk0_10 (t : Fin cfg0.N) (i : S100000x64.Idx) :
    i ∈ ((cfg0.win 10).blk t).view.set ↔ ∀ a : Fin 2, win0_10.index t a * S5000x64.size a ≤ (i a).val ∧ (i a).val < win0_10.index t a * S5000x64.size a + S5000x64.size a := by
  show i ∈ ((View.whole main_v4_1).slice (win0_10.rect t)).set ↔ _
  rw [View.set_slice_whole, Rect.mem_set_unit]
  exact Iff.rfl

/-- Row n of the array is in the block of point n / 5000, and every point writes its block back. -/
theorem blocksCover0_10 (i : S100000x64.Idx) :
    ∃ t : Fin cfg0.N, (cfg0.win 10).flush t = true ∧ i ∈ ((cfg0.win 10).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, ⟨e0, e1⟩, -⟩ := blockIndex0 t
  refine ⟨t, flush0_10 t, ?_⟩
  rw [mem_blk0_10]
  intro a
  match a with
  | ⟨0, _⟩ => show win0_10.index t (0 : Fin 2) * 5000 ≤ (i 0).val ∧ (i 0).val < win0_10.index t (0 : Fin 2) * 5000 + 5000; rw [e0, ht]; omega
  | ⟨1, _⟩ => show win0_10.index t (1 : Fin 2) * 64 ≤ (i 1).val ∧ (i 1).val < win0_10.index t (1 : Fin 2) * 64 + 64; rw [e1]; omega

/-- The array after the region is the closed form. -/
theorem final0_10 : (dat0 V c).arrAt 10 cfg0.N = relu (linT (V c main_arg0) (V c main_v1) (V c main_arg6)) :=
  (dat0 V c).arrAt_eq_of_cover 10 _ (fun t _ => flushed0_10_eq V c t) (blocksCover0_10)

/-! ## Output window 11 -/

/-- What point t writes back to window 11's array is block t of the closed form. -/
theorem flushed0_11_eq (t : Fin cfg0.N) :
    (dat0 V c).flushed 11 t = ((cfg0.win 11).blk t).view.read (Elt Ideal) (relu (linT (V c main_arg0) (V c main_v2) (V c main_arg8))) := by
  have ht : t.val < 20 := lt_of_lt_of_eq t.isLt N_0
  obtain ⟨-, -, -, ⟨e0, e1⟩, -⟩ := blockIndex0 t
  show (cfg0.win 11).cut (grid0.coords t) ((dat0 V c).after 11 t) = _
  rw [after0_11]
  unfold out0_11
  rw [View.canon_unit_zero zeroOffset2_0]
  simp only [View.ld_unit_zero (S := S5000x64) zeroOffset2_0, View.ld_unit_zero (S := S64x64) zeroOffset2_0, View.ld_unit_zero (S := S64) zeroOffset1_0]
  funext j
  obtain ⟨r, q, rfl⟩ : ∃ (r : Fin 5000) (q : Fin 64), j = ix2 r q := ⟨j 0, j 1, eq_ix2 (n0 := 5000) (n1 := 64) j⟩
  have e : ((cfg0.win 11).blk t).view.emb (ix2 r q) = ix2 (⟨t.val * 5000 + r.val, by omega⟩ : Fin 100000) q := by
    funext a; apply Fin.ext
    match a with
    | ⟨0, _⟩ => show win0_11.index t (0 : Fin 2) * 5000 + 1 * r.val = t.val * 5000 + r.val; rw [e0]; omega
    | ⟨1, _⟩ => show win0_11.index t (1 : Fin 2) * 64 + 1 * q.val = q.val; rw [e1]; omega
  show k0_pay5 (iblk0 V c 0 t) (iblk0 V c 5 t) (iblk0 V c 6 t) (ix2 r q) = (relu (linT (V c main_arg0) (V c main_v2) (V c main_arg8))) (((cfg0.win 11).blk t).view.emb (ix2 r q))
  rw [e, k0_pay5_apply,
    linT_block0 (V c main_arg0) (V c main_v2) (V c main_arg8) _ _ _ t.val ht (rowBlock0 V c t ht) (weightBlock0_5 V c t) (biasBlock0_6 V c t) r q]
  rfl

/-- A node–feature index lies in point t's block exactly when its row is one of the block's 5000 rows and its feature one of the 64. -/
theorem mem_blk0_11 (t : Fin cfg0.N) (i : S100000x64.Idx) :
    i ∈ ((cfg0.win 11).blk t).view.set ↔ ∀ a : Fin 2, win0_11.index t a * S5000x64.size a ≤ (i a).val ∧ (i a).val < win0_11.index t a * S5000x64.size a + S5000x64.size a := by
  show i ∈ ((View.whole main_v4_2).slice (win0_11.rect t)).set ↔ _
  rw [View.set_slice_whole, Rect.mem_set_unit]
  exact Iff.rfl

/-- Row n of the array is in the block of point n / 5000, and every point writes its block back. -/
theorem blocksCover0_11 (i : S100000x64.Idx) :
    ∃ t : Fin cfg0.N, (cfg0.win 11).flush t = true ∧ i ∈ ((cfg0.win 11).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, ⟨e0, e1⟩, -⟩ := blockIndex0 t
  refine ⟨t, flush0_11 t, ?_⟩
  rw [mem_blk0_11]
  intro a
  match a with
  | ⟨0, _⟩ => show win0_11.index t (0 : Fin 2) * 5000 ≤ (i 0).val ∧ (i 0).val < win0_11.index t (0 : Fin 2) * 5000 + 5000; rw [e0, ht]; omega
  | ⟨1, _⟩ => show win0_11.index t (1 : Fin 2) * 64 ≤ (i 1).val ∧ (i 1).val < win0_11.index t (1 : Fin 2) * 64 + 64; rw [e1]; omega

/-- The array after the region is the closed form. -/
theorem final0_11 : (dat0 V c).arrAt 11 cfg0.N = relu (linT (V c main_arg0) (V c main_v2) (V c main_arg8)) :=
  (dat0 V c).arrAt_eq_of_cover 11 _ (fun t _ => flushed0_11_eq V c t) (blocksCover0_11)

/-! ## Output window 12 -/

/-- What point t writes back to window 12's array is block t of the closed form. -/
theorem flushed0_12_eq (t : Fin cfg0.N) :
    (dat0 V c).flushed 12 t = ((cfg0.win 12).blk t).view.read (Elt Ideal) (linT (V c main_arg0) (V c main_v3) (V c main_arg10)) := by
  have ht : t.val < 20 := lt_of_lt_of_eq t.isLt N_0
  obtain ⟨-, -, -, -, ⟨e0, e1⟩, -⟩ := blockIndex0 t
  show (cfg0.win 12).cut (grid0.coords t) ((dat0 V c).after 12 t) = _
  rw [after0_12]
  unfold out0_12
  rw [View.canon_unit_zero zeroOffset2_0]
  simp only [View.ld_unit_zero (S := S5000x64) zeroOffset2_0, View.ld_unit_zero (S := S64x64) zeroOffset2_0, View.ld_unit_zero (S := S64) zeroOffset1_0]
  funext j
  obtain ⟨r, q, rfl⟩ : ∃ (r : Fin 5000) (q : Fin 64), j = ix2 r q := ⟨j 0, j 1, eq_ix2 (n0 := 5000) (n1 := 64) j⟩
  have e : ((cfg0.win 12).blk t).view.emb (ix2 r q) = ix2 (⟨t.val * 5000 + r.val, by omega⟩ : Fin 100000) q := by
    funext a; apply Fin.ext
    match a with
    | ⟨0, _⟩ => show win0_12.index t (0 : Fin 2) * 5000 + 1 * r.val = t.val * 5000 + r.val; rw [e0]; omega
    | ⟨1, _⟩ => show win0_12.index t (1 : Fin 2) * 64 + 1 * q.val = q.val; rw [e1]; omega
  show k0_pay1 (k0_pay2 (iblk0 V c 0 t)) (iblk0 V c 7 t) (iblk0 V c 8 t) (ix2 r q) = (linT (V c main_arg0) (V c main_v3) (V c main_arg10)) (((cfg0.win 12).blk t).view.emb (ix2 r q))
  rw [e, k0_pay1_apply,
    linT_block0 (V c main_arg0) (V c main_v3) (V c main_arg10) _ _ _ t.val ht (rowBlock0 V c t ht) (weightBlock0_7 V c t) (biasBlock0_8 V c t) r q]

/-- A node–feature index lies in point t's block exactly when its row is one of the block's 5000 rows and its feature one of the 64. -/
theorem mem_blk0_12 (t : Fin cfg0.N) (i : S100000x64.Idx) :
    i ∈ ((cfg0.win 12).blk t).view.set ↔ ∀ a : Fin 2, win0_12.index t a * S5000x64.size a ≤ (i a).val ∧ (i a).val < win0_12.index t a * S5000x64.size a + S5000x64.size a := by
  show i ∈ ((View.whole main_v4_3).slice (win0_12.rect t)).set ↔ _
  rw [View.set_slice_whole, Rect.mem_set_unit]
  exact Iff.rfl

/-- Row n of the array is in the block of point n / 5000, and every point writes its block back. -/
theorem blocksCover0_12 (i : S100000x64.Idx) :
    ∃ t : Fin cfg0.N, (cfg0.win 12).flush t = true ∧ i ∈ ((cfg0.win 12).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, ⟨e0, e1⟩, -⟩ := blockIndex0 t
  refine ⟨t, flush0_12 t, ?_⟩
  rw [mem_blk0_12]
  intro a
  match a with
  | ⟨0, _⟩ => show win0_12.index t (0 : Fin 2) * 5000 ≤ (i 0).val ∧ (i 0).val < win0_12.index t (0 : Fin 2) * 5000 + 5000; rw [e0, ht]; omega
  | ⟨1, _⟩ => show win0_12.index t (1 : Fin 2) * 64 ≤ (i 1).val ∧ (i 1).val < win0_12.index t (1 : Fin 2) * 64 + 64; rw [e1]; omega

/-- The array after the region is the closed form. -/
theorem final0_12 : (dat0 V c).arrAt 12 cfg0.N = linT (V c main_arg0) (V c main_v3) (V c main_arg10) :=
  (dat0 V c).arrAt_eq_of_cover 12 _ (fun t _ => flushed0_12_eq V c t) (blocksCover0_12)

end

end Cert.KernelIdeal.RegionValue

end
-- ==== Proof.KernelRegion1.lean ====
/-
  The second tiled region, in closed form. Its body computes, block by block of 5000 rows, the pointwise combination
      (beta * g + gamma) / (alpha + beta * deg + eps)
  of four [100000, 64] arrays and the degree column [100000, 1] (broadcast along the features), eps a fixed f32 word.
  Every grid point t handles rows 5000 t .. 5000 t + 4999 of every array, so the twenty blocks tile the output and the
  array the region leaves is the combination of the whole arrays, index by index.
-/
import proofs.«113187_j7619271983310_2_alg».proof.Proof.Gen.KernelIdeal.Frame
import proofs.«113187_j7619271983310_2_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Cert.BoundaryConv Idealize.ShloMosaic.ValueIdx

/-- The two zero offsets of a whole-block access, as the constant function. -/
theorem zeroOffsets1 : (![0, 0] : Fin 2 → Nat) = fun _ => 0 := funext fun a => by fin_cases a <;> rfl

/-! ## The body's payload at an index -/

/-- The combination of five blocks read at row r, feature q: the degree block contributes its entry (r, 0). -/
theorem combineBlock1_apply (b g gm a : Vec Ideal S5000x64 .f32) (d : Vec Ideal S5000x1 .f32) (r : Fin 5000) (q : Fin 64) :
    k1_pay1 b g gm a d (ix2 r q)
      = Ideal.div (b (ix2 r q) * g (ix2 r q) + gm (ix2 r q))
          (a (ix2 r q) + b (ix2 r q) * d (ix2 r (0 : Fin 1)) + Ideal.ofBits .f32 0x322BCC77#32) := by
  unfold k1_pay1
  simp only [shapeCast_self]
  rw [divf_apply, addf_apply, mulf_apply, addf_apply, addf_apply, mulf_apply, broadcast_apply]
  rw [broadcastTo_apply d broadcasts_S5000x1_S5000x64 (ix2 r q) (ix2 r (0 : Fin 1))
    (fun a => match a with | ⟨0, _⟩ => rfl | ⟨1, _⟩ => rfl)]
  rfl

/-! ## The blocks, as rows of their arrays -/

/-- The printed index maps over the twenty grid points: every window's block index at point t is (t, 0). -/
theorem index1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0) :=
  (by decide +kernel : ∀ t : Fin grid1.N, _)

theorem point1_lt (t : Fin cfg1.N) : t.val < 20 := lt_of_lt_of_eq t.isLt N_1

/-- Row r of point t's block is row 5000 t + r of the array. -/
def row1 (t : Fin cfg1.N) (r : Fin 5000) : Fin 100000 :=
  ⟨5000 * t.val + r.val, by have := point1_lt t; have := r.isLt; omega⟩

variable (V : (c : Dev nD) → (b : Ref sig .tc) → Buf (Elt Ideal) ((c : Thread nD τ).loc b)) (c : Dev nD)

/-- Window 0's block at point t of any table on its array's index set, read at (r, q), is the table at (5000 t + r, q). -/
theorem read1_0 (G : SNode.Idx → EReal) (t : Fin cfg1.N) (r : Fin 5000) (q : Fin 64) :
    (((cfg1.win 0).blk t).view.read (Elt Ideal) G : Vec Ideal S5000x64 .f32) (ix2 r q) = G (ix2 (row1 t r) q) := by
  rw [View.read_apply]
  show G _ = G _
  congr 1
  funext a
  apply Fin.ext
  match a with
  | ⟨0, _⟩ =>
    show win1_0.index t (0 : Fin 2) * 5000 + 1 * r.val = 5000 * t.val + r.val
    rw [(index1 t).1.1]; omega
  | ⟨1, _⟩ =>
    show win1_0.index t (1 : Fin 2) * 64 + 1 * q.val = q.val
    rw [(index1 t).1.2]; omega

/-- Window 1's block at point t of any table on its array's index set, read at (r, q), is the table at (5000 t + r, q). -/
theorem read1_1 (G : SNode.Idx → EReal) (t : Fin cfg1.N) (r : Fin 5000) (q : Fin 64) :
    (((cfg1.win 1).blk t).view.read (Elt Ideal) G : Vec Ideal S5000x64 .f32) (ix2 r q) = G (ix2 (row1 t r) q) := by
  rw [View.read_apply]
  show G _ = G _
  congr 1
  funext a
  apply Fin.ext
  match a with
  | ⟨0, _⟩ =>
    show win1_1.index t (0 : Fin 2) * 5000 + 1 * r.val = 5000 * t.val + r.val
    rw [(index1 t).2.1.1]; omega
  | ⟨1, _⟩ =>
    show win1_1.index t (1 : Fin 2) * 64 + 1 * q.val = q.val
    rw [(index1 t).2.1.2]; omega

/-- Window 2's block at point t of any table on its array's index set, read at (r, q), is the table at (5000 t + r, q). -/
theorem read1_2 (G : SNode.Idx → EReal) (t : Fin cfg1.N) (r : Fin 5000) (q : Fin 64) :
    (((cfg1.win 2).blk t).view.read (Elt Ideal) G : Vec Ideal S5000x64 .f32) (ix2 r q) = G (ix2 (row1 t r) q) := by
  rw [View.read_apply]
  show G _ = G _
  congr 1
  funext a
  apply Fin.ext
  match a with
  | ⟨0, _⟩ =>
    show win1_2.index t (0 : Fin 2) * 5000 + 1 * r.val = 5000 * t.val + r.val
    rw [(index1 t).2.2.1.1]; omega
  | ⟨1, _⟩ =>
    show win1_2.index t (1 : Fin 2) * 64 + 1 * q.val = q.val
    rw [(index1 t).2.2.1.2]; omega

/-- Window 3's block at point t of any table on its array's index set, read at (r, q), is the table at (5000 t + r, q). -/
theorem read1_3 (G : SNode.Idx → EReal) (t : Fin cfg1.N) (r : Fin 5000) (q : Fin 64) :
    (((cfg1.win 3).blk t).view.read (Elt Ideal) G : Vec Ideal S5000x64 .f32) (ix2 r q) = G (ix2 (row1 t r) q) := by
  rw [View.read_apply]
  show G _ = G _
  congr 1
  funext a
  apply Fin.ext
  match a with
  | ⟨0, _⟩ =>
    show win1_3.index t (0 : Fin 2) * 5000 + 1 * r.val = 5000 * t.val + r.val
    rw [(index1 t).2.2.2.1.1]; omega
  | ⟨1, _⟩ =>
    show win1_3.index t (1 : Fin 2) * 64 + 1 * q.val = q.val
    rw [(index1 t).2.2.2.1.2]; omega

/-- Window 4's block at point t of any table on its array's index set, read at (r, q), is the table at (5000 t + r, q). -/
theorem read1_4 (G : SDegree.Idx → EReal) (t : Fin cfg1.N) (r : Fin 5000) (q : Fin 1) :
    (((cfg1.win 4).blk t).view.read (Elt Ideal) G : Vec Ideal S5000x1 .f32) (ix2 r q) = G (ix2 (row1 t r) q) := by
  rw [View.read_apply]
  show G _ = G _
  congr 1
  funext a
  apply Fin.ext
  match a with
  | ⟨0, _⟩ =>
    show win1_4.index t (0 : Fin 2) * 5000 + 1 * r.val = 5000 * t.val + r.val
    rw [(index1 t).2.2.2.2.1.1]; omega
  | ⟨1, _⟩ =>
    show win1_4.index t (1 : Fin 2) * 1 + 1 * q.val = q.val
    rw [(index1 t).2.2.2.2.1.2]; omega

/-- Window 5's block at point t of any table on its array's index set, read at (r, q), is the table at (5000 t + r, q). -/
theorem read1_5 (G : SNode.Idx → EReal) (t : Fin cfg1.N) (r : Fin 5000) (q : Fin 64) :
    (((cfg1.win 5).blk t).view.read (Elt Ideal) G : Vec Ideal S5000x64 .f32) (ix2 r q) = G (ix2 (row1 t r) q) := by
  rw [View.read_apply]
  show G _ = G _
  congr 1
  funext a
  apply Fin.ext
  match a with
  | ⟨0, _⟩ =>
    show win1_5.index t (0 : Fin 2) * 5000 + 1 * r.val = 5000 * t.val + r.val
    rw [(index1 t).2.2.2.2.2.1]; omega
  | ⟨1, _⟩ =>
    show win1_5.index t (1 : Fin 2) * 64 + 1 * q.val = q.val
    rw [(index1 t).2.2.2.2.2.2]; omega

/-! ## What a point writes back, and the array the region leaves -/

/-- Point t writes back block t of the combination of the whole arrays. -/
theorem flushed1_5_eq (t : Fin cfg1.N) :
    (dat1 V c).flushed 5 t = ((cfg1.win 5).blk t).view.read (Elt Ideal)
      (combine (V c main_v4_2) (V c main_v26) (V c main_v4_3) (V c main_v4_1) (V c main_arg2)) := by
  show (cfg1.win 5).cut (grid1.coords t) ((dat1 V c).after 5 t) = _
  rw [after1_5]
  unfold out1_5
  rw [View.canon_unit_zero zeroOffsets1]
  simp only [View.ld_unit_zero (S := S5000x64) zeroOffsets1, View.ld_unit_zero (S := S5000x1) zeroOffsets1]
  funext j
  obtain ⟨r, q, rfl⟩ : ∃ (r : Fin 5000) (q : Fin 64), j = ix2 r q := ⟨j 0, j 1, eq_ix2 j⟩
  refine (combineBlock1_apply _ _ _ _ _ r q).trans ?_
  refine Eq.trans ?_ (read1_5 _ t r q).symm
  unfold iblk1
  rw [read1_0, read1_1, read1_2, read1_3, read1_4, combine_apply]
  rfl

/-- A node–feature index lies in point t's block exactly when its row is one of the block's 5000 rows and its feature one of the 64. -/
theorem mem_blk1_5 (t : Fin cfg1.N) (i : SNode.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v27).slice (win1_5.rect t)).set ↔ _
  rw [View.set_slice_whole, Rect.mem_set_unit]
  exact Iff.rfl

/-- The twenty blocks cover the array: row n lies in the block of point n / 5000. -/
theorem covered1_5 (i : SNode.Idx) :
    ∃ t : Fin cfg1.N, (cfg1.win 5).flush t = true ∧ i ∈ ((cfg1.win 5).blk t).view.set := by
  have hi0 : (i 0).val < 100000 := idx2_lt0 i
  have hi1 : (i 1).val < 64 := idx2_lt1 i
  obtain ⟨t, ht⟩ : ∃ t : Fin cfg1.N, t.val = (i 0).val / 5000 :=
    ⟨⟨(i 0).val / 5000, by rw [show cfg1.N = 20 from N_1]; omega⟩, rfl⟩
  obtain ⟨e0, e1⟩ := (index1 t).2.2.2.2.2
  refine ⟨t, flush1_5 t, ?_⟩
  rw [mem_blk1_5]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 64 ≤ (i 1).val ∧ (i 1).val < win1_5.index t (1 : Fin 2) * 64 + 64
    rw [e1]; omega

/-- THE ARRAY THE REGION LEAVES in its output: the combination of the five arrays it was entered with. -/
theorem final1_5 : (dat1 V c).arrAt 5 cfg1.N
    = combine (V c main_v4_2) (V c main_v26) (V c main_v4_3) (V c main_v4_1) (V c main_arg2) :=
  (dat1 V c).arrAt_eq_of_cover 5 _ (fun t _ => flushed1_5_eq V c t) covered1_5

end Cert.KernelIdeal.RegionValue

end
-- ==== Proof.KernelValue.lean ====
/-
  The idealized kernel's result as the layer of its arguments. The last boundary's contents at the result buffer are
  what the combination region's write-backs leave: the pointwise combination of the buffers that region stages. Those are
  the projection region's four outputs (each an affine layer of `x`, two of them under `max · 0`, the weights having
  been transposed on the way in), the aggregate the edge stretch computes from the first of them and the edge array —
  `count · h + Σ h[col]`, which is the folded arrangement of the specification —, and the degree as launched.
-/
import proofs.«113187_j7619271983310_2_alg».proof.Proof.Gen.KernelIdeal.Frame
import proofs.«113187_j7619271983310_2_alg».proof.Proof.Spec
import proofs.«113187_j7619271983310_2_alg».proof.Proof.KernelHost
import proofs.«113187_j7619271983310_2_alg».proof.Proof.KernelRegion0
import proofs.«113187_j7619271983310_2_alg».proof.Proof.KernelRegion1
import Idealize.ShloMosaic.Lib.Pipeline.Value
import Idealize.ShloMosaic.Lib.ValueIdx
import Idealize.ShloMosaic.PureOps.Ideal.Laws

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.BoundaryConv Cert.Lib.SegmentSum

/-! ## The printed dimension numbers are the layer's -/

theorem dG_eq : gather_S100000x64_S1600000x1_S1600000x64_1_0_n_n_0_1_164 = dG := by
  unfold gather_S100000x64_S1600000x1_S1600000x64_1_0_n_n_0_1_164
  rfl
theorem dS_eq : scatter_S100000x64_S1600000x1_S1600000x64_1_0_0_1 = dS := by
  unfold scatter_S100000x64_S1600000x1_S1600000x64_1_0_0_1
  rfl
theorem dV_eq : scatter_S100000_S1600000x1_S1600000_n_0_0_1 = dV := by
  unfold scatter_S100000_S1600000x1_S1600000_n_0_0_1
  rfl
/-! ## Small reads -/

/-- A per-node number laid out as a column and spread over the features, read at a node and a feature. -/
theorem column_apply {α : Type} (hb1 : S100000x1.BroadcastsInDim S100000x64 (![0, 1] : Fin 2 → Fin S100000x64.rank))
    (hb2 : S100000.BroadcastsInDim S100000x1 (![0] : Fin 1 → Fin S100000x1.rank))
    (v : S100000.Idx → α) (n : Fin 100000) (q : Fin 64) :
    broadcastInDim S100000x64 ![0, 1] hb1 (broadcastInDim S100000x1 ![0] hb2 v) (ix2 n q) = v (ix1 n) :=
  (broadcastInDim_apply _ hb1 _ (ix2 n q) (ix2 n (0 : Fin 1)) (fun a => match a with
    | ⟨0, _⟩ => by show n.val = if (100000 : Nat) = 1 then 0 else n.val; rw [if_neg (by decide)]
    | ⟨1, _⟩ => by show 0 = if (1 : Nat) = 1 then 0 else q.val; rw [if_pos rfl])).trans
  (broadcastInDim_apply _ hb2 v (ix2 n (0 : Fin 1)) (ix1 n) (fun a => match a with
    | ⟨0, _⟩ => by show n.val = if (100000 : Nat) = 1 then 0 else n.val; rw [if_neg (by decide)]))

/-- The transposed weight at `(k, q)` is the weight at `(q, k)`. -/
theorem transposed_apply {α : Type} (hT : S64x64.Transposes [1, 0] S64x64) (w : S64x64.Idx → α) (k q : Fin 64) :
    transpose S64x64 [1, 0] w hT (ix2 k q) = w (ix2 q k) :=
  transpose_apply [1, 0] w hT (ix2 k q) (ix2 q k) (fun b => match b with
    | ⟨0, _⟩ => rfl
    | ⟨1, _⟩ => rfl)

/-! ## The program's aggregate is the folded arrangement -/

/-- The count: ones scatter-added into a zero vector. -/
theorem count_eq (sIdx : IVec SEdgeCol 32) :
    Host.scatterAdd (F := Ideal) scatter_S100000_S1600000x1_S1600000_n_0_0_1
        (broadcastInDim S100000 ![] bcast_S_S100000 (constant S_ .f32 0x00000000#32)) sIdx
        (broadcastInDim S1600000 ![] bcast_S_S1600000 (constant S_ .f32 0x3F800000#32))
      = Ideal.hostScatterAdd dV (fun _ => 0) sIdx (fun _ => 1) := by
  unfold Host.scatterAdd
  rw [Ideal.hostScatterAdd_def, dV_eq, splat_zero, splat_one]

/-- The neighbour sum: edge rows scatter-added into a zero table. -/
theorem rowSum_eq (sIdx : IVec SEdgeCol 32) (u : SEdgeRows.Idx → EReal) :
    Host.scatterAdd (F := Ideal) scatter_S100000x64_S1600000x1_S1600000x64_1_0_0_1
        (broadcastInDim S100000x64 ![] bcast_S_S100000x64 (constant S_ .f32 0x00000000#32)) sIdx u
      = Ideal.hostScatterAdd dS (fun _ => 0) sIdx u := by
  unfold Host.scatterAdd
  rw [Ideal.hostScatterAdd_def, dS_eq, splat_zero]

/-- The folded arrangement at a node and a feature. -/
theorem aggFolded_apply (h : SNode.Idx → EReal) (sIdx cIdx : IVec SEdgeCol 32) (n : Fin 100000) (q : Fin 64) :
    aggFolded h sIdx cIdx (ix2 n q)
      = Ideal.hostScatterAdd dV (fun _ => 0) sIdx (fun _ => 1) (ix1 n) * h (ix2 n q)
        + Ideal.hostScatterAdd dS (fun _ => 0) sIdx (Host.gather dG h cIdx) (ix2 n q) := rfl

theorem aggTerm_eq (h : (⟨S100000x64, .f32⟩ : BufTy).Contents (Elt Ideal)) (ed : (⟨S2x1600000, .i32⟩ : BufTy).Contents (Elt Ideal)) :
    HostValue.aggTerm (F := Ideal) h ed
      = aggFolded h (HostValue.scatterCol (F := Ideal) ed) (HostValue.gatherCol (F := Ideal) ed) := by
  funext i
  obtain ⟨n, q, rfl⟩ : ∃ (n : Fin 100000) (q : Fin 64), i = ix2 n q := ⟨i 0, i 1, eq_ix2 i⟩
  refine Eq.trans ?_ (aggFolded_apply _ _ _ n q).symm
  unfold HostValue.aggTerm
  rw [count_eq, rowSum_eq, dG_eq, addf_apply, mulf_apply, column_apply]

/-! ## The result buffer, as the layer of the launch memory -/

variable (m : (ℓ : Loc nD τ sig) → Buf (Elt Ideal) ℓ) (ρ : Dev nD → PrngReg) (c : Dev nD)

/-- What the projection region finds: the launch memory's `x` and biases, the four weights transposed. -/
theorem proj_fc : (dat0 (V1 m ρ) c).arrAt 9 cfg0.N
    = lin (m ((c : Thread nD τ).loc main_arg0)) (m ((c : Thread nD τ).loc main_arg3)) (m ((c : Thread nD τ).loc main_arg4)) := by
  rw [RegionValue.final0_9 (V1 m ρ) c]
  show linT (after (hostOps0 (F := Ideal)) (W0 m ρ c) (Proc.devRef .tc main_arg0))
      (after (hostOps0 (F := Ideal)) (W0 m ρ c) (Proc.devRef .tc main_v0))
      (after (hostOps0 (F := Ideal)) (W0 m ρ c) (Proc.devRef .tc main_arg4)) = _
  rw [HostValue.pre0_arg0, HostValue.pre0_v0, HostValue.pre0_arg4]
  exact linT_eq_lin _ _ _ _ (fun k q => transposed_apply _ _ k q)

theorem proj_dir : (dat0 (V1 m ρ) c).arrAt 10 cfg0.N
    = relu (lin (m ((c : Thread nD τ).loc main_arg0)) (m ((c : Thread nD τ).loc main_arg5)) (m ((c : Thread nD τ).loc main_arg6))) := by
  rw [RegionValue.final0_10 (V1 m ρ) c]
  show relu (linT (after (hostOps0 (F := Ideal)) (W0 m ρ c) (Proc.devRef .tc main_arg0))
      (after (hostOps0 (F := Ideal)) (W0 m ρ c) (Proc.devRef .tc main_v1))
      (after (hostOps0 (F := Ideal)) (W0 m ρ c) (Proc.devRef .tc main_arg6))) = _
  rw [HostValue.pre0_arg0, HostValue.pre0_v1, HostValue.pre0_arg6]
  exact congrArg relu (linT_eq_lin _ _ _ _ (fun k q => transposed_apply _ _ k q))

theorem proj_neu : (dat0 (V1 m ρ) c).arrAt 11 cfg0.N
    = relu (lin (m ((c : Thread nD τ).loc main_arg0)) (m ((c : Thread nD τ).loc main_arg7)) (m ((c : Thread nD τ).loc main_arg8))) := by
  rw [RegionValue.final0_11 (V1 m ρ) c]
  show relu (linT (after (hostOps0 (F := Ideal)) (W0 m ρ c) (Proc.devRef .tc main_arg0))
      (after (hostOps0 (F := Ideal)) (W0 m ρ c) (Proc.devRef .tc main_v2))
      (after (hostOps0 (F := Ideal)) (W0 m ρ c) (Proc.devRef .tc main_arg8))) = _
  rw [HostValue.pre0_arg0, HostValue.pre0_v2, HostValue.pre0_arg8]
  exact congrArg relu (linT_eq_lin _ _ _ _ (fun k q => transposed_apply _ _ k q))

theorem proj_rob : (dat0 (V1 m ρ) c).arrAt 12 cfg0.N
    = lin (m ((c : Thread nD τ).loc main_arg0)) (m ((c : Thread nD τ).loc main_arg9)) (m ((c : Thread nD τ).loc main_arg10)) := by
  rw [RegionValue.final0_12 (V1 m ρ) c]
  show linT (after (hostOps0 (F := Ideal)) (W0 m ρ c) (Proc.devRef .tc main_arg0))
      (after (hostOps0 (F := Ideal)) (W0 m ρ c) (Proc.devRef .tc main_v3))
      (after (hostOps0 (F := Ideal)) (W0 m ρ c) (Proc.devRef .tc main_arg10)) = _
  rw [HostValue.pre0_arg0, HostValue.pre0_v3, HostValue.pre0_arg10]
  exact linT_eq_lin _ _ _ _ (fun k q => transposed_apply _ _ k q)

/-- The edge array and the degree reach the second stretch as launched. -/
theorem mid_arg1 : W2 m ρ c (Proc.devRef .tc main_arg1) = m ((c : Thread nD τ).loc main_arg1) :=
  (W2_of_ne m ρ c main_arg1 (by decide)).trans (HostValue.pre0_arg1 (W0 m ρ c))
theorem mid_arg2 : W2 m ρ c (Proc.devRef .tc main_arg2) = m ((c : Thread nD τ).loc main_arg2) :=
  (W2_of_ne m ρ c main_arg2 (by decide)).trans (HostValue.pre0_arg2 (W0 m ρ c))

/-- THE KERNEL'S VALUE: the result buffer after the run is the layer, in the folded arrangement, of the launch
    memory's arrays, the index columns being the program's own. -/
theorem result_value : W4 m ρ c (Proc.devRef .tc main_v27)
    = layerFolded (m ((c : Thread nD τ).loc main_arg0)) (m ((c : Thread nD τ).loc main_arg2))
        (m ((c : Thread nD τ).loc main_arg3)) (m ((c : Thread nD τ).loc main_arg4))
        (m ((c : Thread nD τ).loc main_arg5)) (m ((c : Thread nD τ).loc main_arg6))
        (m ((c : Thread nD τ).loc main_arg7)) (m ((c : Thread nD τ).loc main_arg8))
        (m ((c : Thread nD τ).loc main_arg9)) (m ((c : Thread nD τ).loc main_arg10))
        (HostValue.scatterCol (F := Ideal) (m ((c : Thread nD τ).loc main_arg1)))
        (HostValue.gatherCol (F := Ideal) (m ((c : Thread nD τ).loc main_arg1))) := by
  rw [show W4 m ρ c (Proc.devRef .tc main_v27) = (dat1 (V3 m ρ) c).arrAt 5 cfg1.N from W4_arr m ρ c 5,
    RegionValue.final1_5 (V3 m ρ) c]
  show combine (after (hostOps1 (F := Ideal)) (W2 m ρ c) (Proc.devRef .tc main_v4_2))
      (after (hostOps1 (F := Ideal)) (W2 m ρ c) (Proc.devRef .tc main_v26))
      (after (hostOps1 (F := Ideal)) (W2 m ρ c) (Proc.devRef .tc main_v4_3))
      (after (hostOps1 (F := Ideal)) (W2 m ρ c) (Proc.devRef .tc main_v4_1))
      (after (hostOps1 (F := Ideal)) (W2 m ρ c) (Proc.devRef .tc main_arg2)) = _
  rw [HostValue.pre1_v4_2, HostValue.pre1_v26, HostValue.pre1_v4_3, HostValue.pre1_v4_1, HostValue.pre1_arg2,
    mid_arg1, mid_arg2,
    show W2 m ρ c (Proc.devRef .tc main_v4_0) = (dat0 (V1 m ρ) c).arrAt 9 cfg0.N from W2_arr m ρ c 9,
    show W2 m ρ c (Proc.devRef .tc main_v4_1) = (dat0 (V1 m ρ) c).arrAt 10 cfg0.N from W2_arr m ρ c 10,
    show W2 m ρ c (Proc.devRef .tc main_v4_2) = (dat0 (V1 m ρ) c).arrAt 11 cfg0.N from W2_arr m ρ c 11,
    show W2 m ρ c (Proc.devRef .tc main_v4_3) = (dat0 (V1 m ρ) c).arrAt 12 cfg0.N from W2_arr m ρ c 12,
    proj_fc, proj_dir, proj_neu, proj_rob, aggTerm_eq]
  unfold layerFolded
  rfl

end Cert.KernelIdeal.KernelValue

end
-- ==== Proof.RefValue.lean ====
/-
  The reference program read as the plain layer: each of its four affine stages is an affine map x · wᵀ + b, the two
  gathers, their sum and the accumulating scatter into a zero table are the plain aggregation, and the last pointwise
  stages are the boundary combination. The three index columns stay as the program computes them from the edge list;
  the first gather's column agrees with the scatter's wherever the latter is non-negative, because it is the same
  column with only its negative entries changed.
-/
import proofs.«113187_j7619271983310_2_alg».proof.Proof.Gen.ReferenceIdeal.Read
import proofs.«113187_j7619271983310_2_alg».proof.Proof.Spec

noncomputable section

open scoped BigOperators

namespace Cert.ReferenceIdeal.RefValue

open Cert.ReferenceIdeal Cert.ReferenceIdeal.Read Cert.BoundaryConv Cert.Lib.SegmentSum
open Idealize.ShloMosaic Idealize.ShloMosaic.ValueIdx Idealize.SL.Sem Idealize.ShloMosaic.StableHlo

/-! ## The four affine stages -/

theorem h_eq (x0 : (⟨S100000x64, .f32⟩ : BufTy).Contents (Elt Ideal)) (x3 : (⟨S64x64, .f32⟩ : BufTy).Contents (Elt Ideal))
    (x4 : (⟨S64, .f32⟩ : BufTy).Contents (Elt Ideal)) :
    val_main_v21 (F := Ideal) x0 x3 x4 = lin x0 x3 x4 := by
  funext i
  obtain ⟨n, c, rfl⟩ : ∃ (n : Fin 100000) (c : Fin 64), i = ix2 n c := ⟨i 0, i 1, eq_ix2 i⟩
  have hl : ∀ k : Fin 64, lidx_main_v18 (ix2 n c) k = ix2 n k := fun k => funext fun a => Fin.ext (by
    match a with | ⟨0, _⟩ => rfl | ⟨1, _⟩ => rfl)
  have hr : ∀ k : Fin 64, idx_main_v17 (ridx_main_v18 (ix2 n c) k) = ix2 c k := fun k => funext fun a => Fin.ext (by
    match a with | ⟨0, _⟩ => rfl | ⟨1, _⟩ => rfl)
  have hb : idx_main_v19 (idx_main_v20 (ix2 n c)) = ix1 c := funext fun a => Fin.ext (by
    match a with | ⟨0, _⟩ => rfl)
  rw [val_main_v21_apply, val_main_v18_apply, val_main_v20_apply, val_main_v19_apply, hb, lin_apply]
  unfold linAt
  rw [Ideal.addf_def]
  congr 1
  refine Finset.sum_congr rfl fun k _ => ?_
  rw [val_main_v17_apply, hl, hr]

theorem alphaPre_eq (x0 : (⟨S100000x64, .f32⟩ : BufTy).Contents (Elt Ideal)) (x5 : (⟨S64x64, .f32⟩ : BufTy).Contents (Elt Ideal))
    (x6 : (⟨S64, .f32⟩ : BufTy).Contents (Elt Ideal)) :
    val_main_v4 (F := Ideal) x0 x5 x6 = lin x0 x5 x6 := by
  funext i
  obtain ⟨n, c, rfl⟩ : ∃ (n : Fin 100000) (c : Fin 64), i = ix2 n c := ⟨i 0, i 1, eq_ix2 i⟩
  have hl : ∀ k : Fin 64, lidx_main_v1 (ix2 n c) k = ix2 n k := fun k => funext fun a => Fin.ext (by
    match a with | ⟨0, _⟩ => rfl | ⟨1, _⟩ => rfl)
  have hr : ∀ k : Fin 64, idx_main_v0 (ridx_main_v1 (ix2 n c) k) = ix2 c k := fun k => funext fun a => Fin.ext (by
    match a with | ⟨0, _⟩ => rfl | ⟨1, _⟩ => rfl)
  have hb : idx_main_v2 (idx_main_v3 (ix2 n c)) = ix1 c := funext fun a => Fin.ext (by
    match a with | ⟨0, _⟩ => rfl)
  rw [val_main_v4_apply, val_main_v1_apply, val_main_v3_apply, val_main_v2_apply, hb, lin_apply]
  unfold linAt
  rw [Ideal.addf_def]
  congr 1
  refine Finset.sum_congr rfl fun k _ => ?_
  rw [val_main_v0_apply, hl, hr]

theorem betaPre_eq (x0 : (⟨S100000x64, .f32⟩ : BufTy).Contents (Elt Ideal)) (x7 : (⟨S64x64, .f32⟩ : BufTy).Contents (Elt Ideal))
    (x8 : (⟨S64, .f32⟩ : BufTy).Contents (Elt Ideal)) :
    val_main_v10 (F := Ideal) x0 x7 x8 = lin x0 x7 x8 := by
  funext i
  obtain ⟨n, c, rfl⟩ : ∃ (n : Fin 100000) (c : Fin 64), i = ix2 n c := ⟨i 0, i 1, eq_ix2 i⟩
  have hl : ∀ k : Fin 64, lidx_main_v7 (ix2 n c) k = ix2 n k := fun k => funext fun a => Fin.ext (by
    match a with | ⟨0, _⟩ => rfl | ⟨1, _⟩ => rfl)
  have hr : ∀ k : Fin 64, idx_main_v6 (ridx_main_v7 (ix2 n c) k) = ix2 c k := fun k => funext fun a => Fin.ext (by
    match a with | ⟨0, _⟩ => rfl | ⟨1, _⟩ => rfl)
  have hb : idx_main_v8 (idx_main_v9 (ix2 n c)) = ix1 c := funext fun a => Fin.ext (by
    match a with | ⟨0, _⟩ => rfl)
  rw [val_main_v10_apply, val_main_v7_apply, val_main_v9_apply, val_main_v8_apply, hb, lin_apply]
  unfold linAt
  rw [Ideal.addf_def]
  congr 1
  refine Finset.sum_congr rfl fun k _ => ?_
  rw [val_main_v6_apply, hl, hr]

theorem gamma_eq (x0 : (⟨S100000x64, .f32⟩ : BufTy).Contents (Elt Ideal)) (x9 : (⟨S64x64, .f32⟩ : BufTy).Contents (Elt Ideal))
    (x10 : (⟨S64, .f32⟩ : BufTy).Contents (Elt Ideal)) :
    val_main_v16 (F := Ideal) x0 x9 x10 = lin x0 x9 x10 := by
  funext i
  obtain ⟨n, c, rfl⟩ : ∃ (n : Fin 100000) (c : Fin 64), i = ix2 n c := ⟨i 0, i 1, eq_ix2 i⟩
  have hl : ∀ k : Fin 64, lidx_main_v13 (ix2 n c) k = ix2 n k := fun k => funext fun a => Fin.ext (by
    match a with | ⟨0, _⟩ => rfl | ⟨1, _⟩ => rfl)
  have hr : ∀ k : Fin 64, idx_main_v12 (ridx_main_v13 (ix2 n c) k) = ix2 c k := fun k => funext fun a => Fin.ext (by
    match a with | ⟨0, _⟩ => rfl | ⟨1, _⟩ => rfl)
  have hb : idx_main_v14 (idx_main_v15 (ix2 n c)) = ix1 c := funext fun a => Fin.ext (by
    match a with | ⟨0, _⟩ => rfl)
  rw [val_main_v16_apply, val_main_v13_apply, val_main_v15_apply, val_main_v14_apply, hb, lin_apply]
  unfold linAt
  rw [Ideal.addf_def]
  congr 1
  refine Finset.sum_congr rfl fun k _ => ?_
  rw [val_main_v12_apply, hl, hr]

theorem alpha_eq (x0 : (⟨S100000x64, .f32⟩ : BufTy).Contents (Elt Ideal)) (x5 : (⟨S64x64, .f32⟩ : BufTy).Contents (Elt Ideal))
    (x6 : (⟨S64, .f32⟩ : BufTy).Contents (Elt Ideal)) :
    val_main_v5 (F := Ideal) x0 x5 x6 = relu (lin x0 x5 x6) := by
  funext i
  rw [val_main_v5_apply, val_main_call0_v0_apply, val_main_call0_cst_apply, Ideal.maximumf_def, alphaPre_eq]
  rfl

theorem beta_eq (x0 : (⟨S100000x64, .f32⟩ : BufTy).Contents (Elt Ideal)) (x7 : (⟨S64x64, .f32⟩ : BufTy).Contents (Elt Ideal))
    (x8 : (⟨S64, .f32⟩ : BufTy).Contents (Elt Ideal)) :
    val_main_v11 (F := Ideal) x0 x7 x8 = relu (lin x0 x7 x8) := by
  funext i
  rw [val_main_v11_apply, val_main_call1_v0_apply, val_main_call1_cst_apply, Ideal.maximumf_def, betaPre_eq]
  rfl

/-! ## The aggregation -/

/-- The printed gather's dimension numbers are the row gather's. -/
theorem gatherDims_eq : gather_S100000x64_S1600000x1_S1600000x64_1_0_n_n_0_1_164 = dG := by
  unfold gather_S100000x64_S1600000x1_S1600000x64_1_0_n_n_0_1_164
  rfl

/-- The printed scatter's dimension numbers are the row scatter's. -/
theorem scatterDims_eq : scatter_S100000x64_S1600000x1_S1600000x64_1_0_0_1 = dS := by
  unfold scatter_S100000x64_S1600000x1_S1600000x64_1_0_0_1
  rfl

/-- The table the scatter accumulates into is the zero table. -/
theorem zeroTable_eq : val_main_v41 (F := Ideal) = fun _ => (0 : EReal) := by
  unfold val_main_v41 val_main_cst
  exact splat_zero _

/-- Two gathers of the affine table, added, scattered with accumulation into the zero table: the plain aggregation. -/
theorem agg_eq (x0 : (⟨S100000x64, .f32⟩ : BufTy).Contents (Elt Ideal)) (x1 : (⟨S2x1600000, .i32⟩ : BufTy).Contents (Elt Ideal))
    (x3 : (⟨S64x64, .f32⟩ : BufTy).Contents (Elt Ideal)) (x4 : (⟨S64, .f32⟩ : BufTy).Contents (Elt Ideal)) :
    val_main_v43 (F := Ideal) x0 x1 x3 x4
      = aggPlain (lin x0 x3 x4) (val_main_v42 (F := Ideal) x1) (val_main_v31 (F := Ideal) x1) (val_main_v38 (F := Ideal) x1) := by
  unfold val_main_v43 val_main_v40 val_main_v32 val_main_v39 aggPlain
  rw [h_eq, zeroTable_eq, gatherDims_eq, scatterDims_eq]
  rfl

/-! ## The whole layer -/

theorem result_eq (x0 : (⟨S100000x64, .f32⟩ : BufTy).Contents (Elt Ideal)) (x1 : (⟨S2x1600000, .i32⟩ : BufTy).Contents (Elt Ideal))
    (x2 : (⟨S100000x1, .f32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (x9 : (⟨S64x64, .f32⟩ : BufTy).Contents (Elt Ideal)) (x10 : (⟨S64, .f32⟩ : BufTy).Contents (Elt Ideal)) :
    Cert.ReferenceIdeal.Read.val_main_v51 (F := Ideal) x0 x1 x2 x3 x4 x5 x6 x7 x8 x9 x10
      = Cert.BoundaryConv.layerPlain x0 x2 x3 x4 x5 x6 x7 x8 x9 x10
          (Cert.ReferenceIdeal.Read.val_main_v42 (F := Ideal) x1) (Cert.ReferenceIdeal.Read.val_main_v31 (F := Ideal) x1)
          (Cert.ReferenceIdeal.Read.val_main_v38 (F := Ideal) x1) := by
  funext i
  obtain ⟨n, c, rfl⟩ : ∃ (n : Fin 100000) (c : Fin 64), i = ix2 n c := ⟨i 0, i 1, eq_ix2 i⟩
  have hd : idx_main_v46 (ix2 n c) = ix2 n (0 : Fin 1) := funext fun a => Fin.ext (by
    match a with | ⟨0, _⟩ => rfl | ⟨1, _⟩ => rfl)
  rw [val_main_v51_apply, val_main_v45_apply, val_main_v44_apply, val_main_v50_apply, val_main_v48_apply, val_main_v47_apply,
    val_main_v46_apply, val_main_v49_apply, val_main_cst_3_apply, hd, beta_eq, agg_eq, gamma_eq, alpha_eq]
  rfl

/-! ## The first gather's index column against the scatter's -/

theorem idx_agree (x1 : (⟨S2x1600000, .i32⟩ : BufTy).Contents (Elt Ideal)) :
    ∀ e : Fin 1600000, 0 ≤ (Cert.ReferenceIdeal.Read.val_main_v42 (F := Ideal) x1 (Cert.Lib.SegmentSum.col e)).toInt →
      Cert.ReferenceIdeal.Read.val_main_v31 (F := Ideal) x1 (Cert.Lib.SegmentSum.col e)
        = Cert.ReferenceIdeal.Read.val_main_v42 (F := Ideal) x1 (Cert.Lib.SegmentSum.col e) := by
  intro e he
  rw [val_main_v42_apply] at he ⊢
  rw [val_main_v31_apply, val_main_v30_apply, val_main_v27_apply, val_main_v26_apply, val_main_c_apply]
  exact select_slt_zero_of_nonneg _ _ he

end Cert.ReferenceIdeal.RefValue

end
-- ==== Proof.lean ====
/-
  The certificate. Both idealized programs compute the boundary-convolution layer of their arguments:

    out = (β · agg + γ) / (α + β · deg + ε),   α = max(x·dir_wᵀ + dir_b, 0),  β = max(x·neu_wᵀ + neu_b, 0),
    γ = x·rob_wᵀ + rob_b,   h = x·fc_wᵀ + fc_b,   agg[n] = Σ over the edges e whose first entry is n of (h[row e] + h[col e]).

  The reference sums `h[row e] + h[col e]` edge by edge; the kernel computes `count[n] · h[n] + Σ h[col e]` with the
  count taken from the edge list itself. The two agree on the extended reals with no finiteness assumption: an edge
  contributes to node `n` only when its first entry, read signed, is exactly `n` (an entry outside the table is dropped by
  both programs' scatters), and then the row it gathers for that entry is row `n`; a natural number of copies of one
  extended real is that number times it. Everything else is the same operation on both sides at the exact reading
  (a change of float format is the identity, a tile-by-tile matrix product is the whole product).

  The frames of the two kernel programs are generated; the reference's is its generated run with the result dropped.
  Nothing was rewritten by the idealization, so the kernel's idealization is the kernel's own text.
-/
import proofs.«113187_j7619271983310_2_alg».proof.Defs
import proofs.«113187_j7619271983310_2_alg».proof.Proof.Gen.Kernel
import proofs.«113187_j7619271983310_2_alg».proof.Proof.Gen.Kernel.Skeleton
import proofs.«113187_j7619271983310_2_alg».proof.Proof.Gen.Kernel.Launch
import proofs.«113187_j7619271983310_2_alg».proof.Proof.Gen.Kernel.Points
import proofs.«113187_j7619271983310_2_alg».proof.Proof.Gen.Kernel.Frame
import proofs.«113187_j7619271983310_2_alg».proof.Proof.Gen.KernelIdeal
import proofs.«113187_j7619271983310_2_alg».proof.Proof.Gen.KernelIdeal.Skeleton
import proofs.«113187_j7619271983310_2_alg».proof.Proof.Gen.KernelIdeal.Launch
import proofs.«113187_j7619271983310_2_alg».proof.Proof.Gen.KernelIdeal.Points
import proofs.«113187_j7619271983310_2_alg».proof.Proof.Gen.KernelIdeal.Frame
import proofs.«113187_j7619271983310_2_alg».proof.Proof.Gen.ReferenceIdeal
import proofs.«113187_j7619271983310_2_alg».proof.Proof.Gen.Pre_finite_inputs
import proofs.«113187_j7619271983310_2_alg».proof.Proof.Gen.ReferenceIdeal.Run
import proofs.«113187_j7619271983310_2_alg».proof.Proof.Gen.ReferenceIdeal.Read
import proofs.«113187_j7619271983310_2_alg».proof.Proof.Spec
import proofs.«113187_j7619271983310_2_alg».proof.Proof.KernelRun
import proofs.«113187_j7619271983310_2_alg».proof.Proof.KernelValue
import proofs.«113187_j7619271983310_2_alg».proof.Proof.RefValue
import Idealize.ShloMosaic.Adequacy
import Idealize.ShloMosaic.Init

noncomputable section

namespace Cert.Proof

open Idealize.ShloMosaic Idealize.ShloMosaic.TcCoe Idealize.SL.Sem

/-- The two programs' index columns are the same operations on the edge array. -/
theorem scatterCol_eq (ed : (⟨Cert.ReferenceIdeal.S2x1600000, .i32⟩ : BufTy).Contents (Elt Ideal)) :
    Cert.ReferenceIdeal.Read.val_main_v42 (F := Ideal) ed = Cert.KernelIdeal.HostValue.scatterCol (F := Ideal) ed := rfl

theorem gatherCol_eq (ed : (⟨Cert.ReferenceIdeal.S2x1600000, .i32⟩ : BufTy).Contents (Elt Ideal)) :
    Cert.ReferenceIdeal.Read.val_main_v38 (F := Ideal) ed = Cert.KernelIdeal.HostValue.gatherCol (F := Ideal) ed := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the layer of those arguments in their result
    buffers: the kernel's in the folded arrangement, the reference's in the plain one. -/
theorem algebraic : Cert.algebraic_KernelIdeal_ReferenceIdeal := by
  intro m ρ m' ρ' _ hagree
  refine ⟨fun c => Cert.KernelIdeal.Gen.W4 m ρ c (Proc.devRef .tc Cert.KernelIdeal.main_v27),
    Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v51_eq, h0, h1, h2, h3, h4, h5, h6, h7, h8, h9, h10,
    Cert.ReferenceIdeal.RefValue.result_eq,
    Cert.BoundaryConv.layerPlain_eq_layerFolded _ _ _ _ _ _ _ _ _ _ _ _ _ (Cert.ReferenceIdeal.RefValue.idx_agree _),
    scatterCol_eq, gatherCol_eq]
  exact (Cert.KernelIdeal.KernelValue.result_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
